-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x1024 : Shape := ⟨3, ![8192, 1, 1024]⟩
abbrev S8192x1x512 : Shape := ⟨3, ![8192, 1, 512]⟩
abbrev S512x2048 : Shape := ⟨2, ![512, 2048]⟩
abbrev S512 : Shape := ⟨1, ![512]⟩
abbrev S512x1 : Shape := ⟨2, ![512, 1]⟩
abbrev S_ : Shape := ⟨0, ![]⟩

class Facts : Prop where
  bcast_S_S8192x1x1024 : S_.BroadcastsInDim S8192x1x1024 (![] : Fin 0 → Fin S8192x1x1024.rank)
  reducesTo_S8192x1x1024_S_d0_1_2 : S8192x1x1024.ReducesTo [0, 1, 2] S_
  h_S_ : 0 < S_.numel
  bcast_S_S8192x1x512 : S_.BroadcastsInDim S8192x1x512 (![] : Fin 0 → Fin S8192x1x512.rank)
  reducesTo_S8192x1x512_S_d0_1_2 : S8192x1x512.ReducesTo [0, 1, 2] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_

variable [Facts]

def fn_part2 {F : FTy → Type} [FloatOps F] (main_arg7 : FVec F S512 .f32) (main_arg8 : FVec F S512x1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1 .f32 := Host.absf main_arg8
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  main_v43

def fn_part1 {F : FTy → Type} [FloatOps F] (main_arg4 : FVec F S8192x1x1024 .f32) (main_arg5 : FVec F S8192x1x512 .f32) (main_arg6 : FVec F S512x2048 .f32) (main_arg7 : FVec F S512 .f32) (main_arg8 : FVec F S512x1 .f32) (main_v13 : IVec S_ 1) (main_v16 : IVec S8192x1x512 1) : IVec S_ 1 :=
  let main_c_5 : IVec S_ 1 := constantI S_ 1 1#1
  let main_v17 : IVec S_ 1 := (fun x v => Host.reduce IntOp.andi x v reducesTo_S8192x1x512_S_d0_1_2 h_S_) main_v16 main_c_5
  let main_v18 : IVec S_ 1 := andi main_v13 main_v17
  let main_v19 : FVec F S8192x1x1024 .f32 := Host.absf main_arg4
  let main_cst_6 : FVec F S_ .f32 := constant S_ .f32 0x7F800000#32
  let main_v20 : FVec F S8192x1x1024 .f32 := broadcastInDim S8192x1x1024 ![] bcast_S_S8192x1x1024 main_cst_6
  let main_v21 : IVec S8192x1x1024 1 := cmpf .olt main_v19 main_v20
  let main_c_7 : IVec S_ 1 := constantI S_ 1 1#1
  let main_v22 : IVec S_ 1 := (fun x v => Host.reduce IntOp.andi x v reducesTo_S8192x1x1024_S_d0_1_2 h_S_) main_v21 main_c_7
  let main_v23 : IVec S_ 1 := andi main_v18 main_v22
  let main_v24 : FVec F S8192x1x512 .f32 := Host.absf main_arg5
  let main_cst_8 : FVec F S_ .f32 := constant S_ .f32 0x7F800000#32
  let main_v25 : FVec F S8192x1x512 .f32 := broadcastInDim S8192x1x512 ![] bcast_S_S8192x1x512 main_cst_8
  let main_v26 : IVec S8192x1x512 1 := cmpf .olt main_v24 main_v25
  let main_c_9 : IVec S_ 1 := constantI S_ 1 1#1
  let main_v27 : IVec S_ 1 := (fun x v => Host.reduce IntOp.andi x v reducesTo_S8192x1x512_S_d0_1_2 h_S_) main_v26 main_c_9
  let main_v28 : IVec S_ 1 := andi main_v23 main_v27
  let main_v29 : FVec F S512x2048 .f32 := Host.absf main_arg6
  let main_cst_10 : FVec F S_ .f32 := constant S_ .f32 0x7F800000#32
  let main_v30 : FVec F S512x2048 .f32 := broadcastInDim S512x2048 ![] bcast_S_S512x2048 main_cst_10
  let main_v31 : IVec S512x2048 1 := cmpf .olt main_v29 main_v30
  let main_c_11 : IVec S_ 1 := constantI S_ 1 1#1
  let main_v32 : IVec S_ 1 := (fun x v => Host.reduce IntOp.andi x v reducesTo_S512x2048_S_d0_1 h_S_) main_v31 main_c_11
  let main_v33 : IVec S_ 1 := andi main_v28 main_v32
  fn_part2 (F := F) main_arg7 main_arg8 main_v33

def fn {F : FTy → Type} [FloatOps F] (main_arg0 : FVec F S8192x1x1024 .f32) (main_arg1 : FVec F S8192x1x512 .f32) (main_arg2 : FVec F S8192x1x512 .f32) (main_arg3 : FVec F S8192x1x512 .f32) (main_arg4 : FVec F S8192x1x1024 .f32) (main_arg5 : FVec F S8192x1x512 .f32) (main_arg6 : FVec F S512x2048 .f32) (main_arg7 : FVec F S512 .f32) (main_arg8 : FVec F S512x1 .f32) : IVec S_ 1 :=
  let main_v0 : FVec F S8192x1x1024 .f32 := Host.absf main_arg0
  let main_cst : FVec F S_ .f32 := constant S_ .f32 0x7F800000#32
  let main_v1 : FVec F S8192x1x1024 .f32 := broadcastInDim S8192x1x1024 ![] bcast_S_S8192x1x1024 main_cst
  let main_v2 : IVec S8192x1x1024 1 := cmpf .olt main_v0 main_v1
  let main_c : IVec S_ 1 := constantI S_ 1 1#1
  let main_v3 : IVec S_ 1 := (fun x v => Host.reduce IntOp.andi x v reducesTo_S8192x1x1024_S_d0_1_2 h_S_) main_v2 main_c
  let main_v4 : FVec F S8192x1x512 .f32 := Host.absf main_arg1
  let main_cst_0 : FVec F S_ .f32 := constant S_ .f32 0x7F800000#32
  let main_v5 : FVec F S8192x1x512 .f32 := broadcastInDim S8192x1x512 ![] bcast_S_S8192x1x512 main_cst_0
  let main_v6 : IVec S8192x1x512 1 := cmpf .olt main_v4 main_v5
  let main_c_1 : IVec S_ 1 := constantI S_ 1 1#1
  let main_v7 : IVec S_ 1 := (fun x v => Host.reduce IntOp.andi x v reducesTo_S8192x1x512_S_d0_1_2 h_S_) main_v6 main_c_1
  let main_v8 : IVec S_ 1 := andi main_v3 main_v7
  let main_v9 : FVec F S8192x1x512 .f32 := Host.absf main_arg2
  let main_cst_2 : FVec F S_ .f32 := constant S_ .f32 0x7F800000#32
  let main_v10 : FVec F S8192x1x512 .f32 := broadcastInDim S8192x1x512 ![] bcast_S_S8192x1x512 main_cst_2
  let main_v11 : IVec S8192x1x512 1 := cmpf .olt main_v9 main_v10
  let main_c_3 : IVec S_ 1 := constantI S_ 1 1#1
  let main_v12 : IVec S_ 1 := (fun x v => Host.reduce IntOp.andi x v reducesTo_S8192x1x512_S_d0_1_2 h_S_) main_v11 main_c_3
  let main_v13 : IVec S_ 1 := andi main_v8 main_v12
  let main_v14 : FVec F S8192x1x512 .f32 := Host.absf main_arg3
  let main_cst_4 : FVec F S_ .f32 := constant S_ .f32 0x7F800000#32
  let main_v15 : FVec F S8192x1x512 .f32 := broadcastInDim S8192x1x512 ![] bcast_S_S8192x1x512 main_cst_4
  let main_v16 : IVec S8192x1x512 1 := cmpf .olt main_v14 main_v15
  fn_part1 (F := F) main_arg4 main_arg5 main_arg6 main_arg7 main_arg8 main_v13 main_v16
-- ==== Kernel.lean ====
abbrev S8192x1x1024 : Shape := ⟨3, ![8192, 1, 1024]⟩
abbrev S8192x1x512 : Shape := ⟨3, ![8192, 1, 512]⟩
abbrev S512x2048 : Shape := ⟨2, ![512, 2048]⟩
abbrev S512 : Shape := ⟨1, ![512]⟩
abbrev S512x1 : Shape := ⟨2, ![512, 1]⟩
abbrev S8192x1024 : Shape := ⟨2, ![8192, 1024]⟩
abbrev S8192x512 : Shape := ⟨2, ![8192, 512]⟩
abbrev S1x512 : Shape := ⟨2, ![1, 512]⟩
abbrev S8192x2048 : Shape := ⟨2, ![8192, 2048]⟩
abbrev S512x1024 : Shape := ⟨2, ![512, 1024]⟩
abbrev S512x512 : Shape := ⟨2, ![512, 512]⟩
abbrev S8192x1x2048 : Shape := ⟨3, ![8192, 1, 2048]⟩

abbrev nBuf : Space → Nat
  | .hbm => 20
  | .vmem => 17
  | .smem => 0
  | _ => 0

abbrev bufTy : (tb : Table) → Fin (tcTables nBuf tb) → BufTy
  | .hbm, ⟨0, _⟩ => ⟨S8192x1x1024, .f32⟩
  | .hbm, ⟨1, _⟩ => ⟨S8192x1x512, .f32⟩
  | .hbm, ⟨2, _⟩ => ⟨S8192x1x512, .f32⟩
  | .hbm, ⟨3, _⟩ => ⟨S8192x1x512, .f32⟩
  | .hbm, ⟨4, _⟩ => ⟨S8192x1x1024, .f32⟩
  | .hbm, ⟨5, _⟩ => ⟨S8192x1x512, .f32⟩
  | .hbm, ⟨6, _⟩ => ⟨S512x2048, .f32⟩
  | .hbm, ⟨7, _⟩ => ⟨S512, .f32⟩
  | .hbm, ⟨8, _⟩ => ⟨S512x1, .f32⟩
  | .hbm, ⟨9, _⟩ => ⟨S8192x1024, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x1024, .f32⟩
  | .hbm, ⟨14, _⟩ => ⟨S8192x512, .f32⟩
  | .hbm, ⟨15, _⟩ => ⟨S1x512, .f32⟩
  | .hbm, ⟨16, _⟩ => ⟨S1x512, .f32⟩
  | .hbm, ⟨17, _⟩ => ⟨S512x2048, .bf16⟩
  | .hbm, ⟨18, _⟩ => ⟨S8192x2048, .f32⟩
  | .hbm, ⟨19, _⟩ => ⟨S8192x1x2048, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x512, .f32⟩
  | .local _ .vmem, ⟨11, _⟩ => ⟨S512x512, .f32⟩
  | .local _ .vmem, ⟨12, _⟩ => ⟨S512x2048, .bf16⟩
  | .local _ .vmem, ⟨13, _⟩ => ⟨S1x512, .f32⟩
  | .local _ .vmem, ⟨14, _⟩ => ⟨S1x512, .f32⟩
  | .local _ .vmem, ⟨15, _⟩ => ⟨S512x2048, .f32⟩
  | .local _ .vmem, ⟨16, _⟩ => ⟨S512x2048, .f32⟩
  | _, _ => ⟨S8192x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S8192x1x1024_S8192x1024 : S8192x1x1024.ShapeCasts S8192x1024
  shapeCasts_S8192x1x512_S8192x512 : S8192x1x512.ShapeCasts S8192x512
  shapeCasts_S512_S1x512 : S512.ShapeCasts S1x512
  shapeCasts_S512x1_S1x512 : S512x1.ShapeCasts S1x512
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S512x2048_o0_0_S512x1024 : S512x2048.Slices ![0, 0] S512x1024
  slices_S512x2048_o0_0_S512x512 : S512x2048.Slices ![0, 0] S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S512x512 : S1x512.Broadcasts S512x512
  reduces_S512x512_S512 : S512x512.Reduces [1] S512
  shapeCasts_S512_S512x1 : S512.ShapeCasts S512x1
  slices_S512x1024_o0_0_S512x512 : S512x1024.Slices ![0, 0] S512x512
  broadcasts_S512x1_S512x512 : S512x1.Broadcasts S512x512
  slices_S512x1024_o0_512_S512x512 : S512x1024.Slices ![0, 512] S512x512
  inb_S512x2048_S512x512_0_0 : ∀ a, (![0, 0] : Fin 2 → Nat) a + S512x512.size a ≤ S512x2048.size a
  inb_S512x2048_S512x512_0_512 : ∀ a, (![0, 512] : Fin 2 → Nat) a + S512x512.size a ≤ S512x2048.size a
  inb_S512x2048_S512x1024_0_1024 : ∀ a, (![0, 1024] : Fin 2 → Nat) a + S512x1024.size a ≤ S512x2048.size a
  shapeCasts_S8192x2048_S8192x1x2048 : S8192x2048.ShapeCasts S8192x1x2048
  dot_S512x1024_S512x1024_S512x512_1_1_0_0_n_n_wf : DotDims.WF S512x1024 S512x1024 S512x512 [1] [1] [0] [0] [] []
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x512.size a
  hwx0_2 : ∀ i : grid0.Coords, EltTy.bits .f32 = 32 ∨ (Rect.block (s := S8192x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x512.size a
  hwx0_3 : ∀ i : grid0.Coords, EltTy.bits .f32 = 32 ∨ (Rect.block (s := S8192x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x512.size a
  hwx0_5 : ∀ i : grid0.Coords, EltTy.bits .f32 = 32 ∨ (Rect.block (s := S8192x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S512x2048.size a
  hwx0_6 : ∀ i : grid0.Coords, EltTy.bits .bf16 = 32 ∨ (Rect.block (s := S512x2048) S512x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x2048.size a ≤ S8192x2048.size a
  hwx0_9 : ∀ i : grid0.Coords, EltTy.bits .f32 = 32 ∨ (Rect.block (s := S8192x2048) S512x2048.size (cc0_transform_9 i) (hinb0_9 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S512x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x1x1024 : Shape := ⟨3, ![8192, 1, 1024]⟩
abbrev S8192x1x512 : Shape := ⟨3, ![8192, 1, 512]⟩
abbrev S512x2048 : Shape := ⟨2, ![512, 2048]⟩
abbrev S512 : Shape := ⟨1, ![512]⟩
abbrev S512x1 : Shape := ⟨2, ![512, 1]⟩
abbrev S_ : Shape := ⟨0, ![]⟩
abbrev S8192x1x2048 : Shape := ⟨3, ![8192, 1, 2048]⟩
abbrev S8192x6x2048 : Shape := ⟨3, ![8192, 6, 2048]⟩
abbrev S8192x6x512 : Shape := ⟨3, ![8192, 6, 512]⟩
abbrev S1x1x512 : Shape := ⟨3, ![1, 1, 512]⟩
abbrev S8192x6x1 : Shape := ⟨3, ![8192, 6, 1]⟩
abbrev S8192x1x6 : Shape := ⟨3, ![8192, 1, 6]⟩
abbrev S8192x1 : Shape := ⟨2, ![8192, 1]⟩
abbrev S8192x1x1 : Shape := ⟨3, ![8192, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S8192x1x1024, .f32⟩
  | .hbm, ⟨1, _⟩ => ⟨S8192x1x512, .f32⟩
  | .hbm, ⟨2, _⟩ => ⟨S8192x1x512, .f32⟩
  | .hbm, ⟨3, _⟩ => ⟨S8192x1x512, .f32⟩
  | .hbm, ⟨4, _⟩ => ⟨S8192x1x1024, .f32⟩
  | .hbm, ⟨5, _⟩ => ⟨S8192x1x512, .f32⟩
  | .hbm, ⟨6, _⟩ => ⟨S512x2048, .f32⟩
  | .hbm, ⟨7, _⟩ => ⟨S512, .f32⟩
  | .hbm, ⟨8, _⟩ => ⟨S512x1, .f32⟩
  | .hbm, ⟨9, _⟩ => ⟨S_, .i32⟩
  | .hbm, ⟨10, _⟩ => ⟨S_, .f32⟩
  | .hbm, ⟨11, _⟩ => ⟨S8192x1x2048, .f32⟩
  | .hbm, ⟨12, _⟩ => ⟨S_, .i32⟩
  | .hbm, ⟨13, _⟩ => ⟨S_, .f32⟩
  | .hbm, ⟨14, _⟩ => ⟨S8192x1x2048, .f32⟩
  | .hbm, ⟨15, _⟩ => ⟨S_, .i32⟩
  | .hbm, ⟨16, _⟩ => ⟨S_, .f32⟩
  | .hbm, ⟨17, _⟩ => ⟨S8192x1x2048, .f32⟩
  | .hbm, ⟨18, _⟩ => ⟨S_, .i32⟩
  | .hbm, ⟨19, _⟩ => ⟨S_, .f32⟩
  | .hbm, ⟨20, _⟩ => ⟨S8192x1x2048, .f32⟩
  | .hbm, ⟨21, _⟩ => ⟨S_, .i32⟩
  | .hbm, ⟨22, _⟩ => ⟨S_, .f32⟩
  | .hbm, ⟨23, _⟩ => ⟨S8192x1x2048, .f32⟩
  | .hbm, ⟨24, _⟩ => ⟨S_, .i32⟩
  | .hbm, ⟨25, _⟩ => ⟨S_, .f32⟩
  | .hbm, ⟨26, _⟩ => ⟨S8192x1x2048, .f32⟩
  | .hbm, ⟨27, _⟩ => ⟨S8192x6x2048, .f32⟩
  | .hbm, ⟨28, _⟩ => ⟨S8192x6x512, .f32⟩
  | .hbm, ⟨29, _⟩ => ⟨S1x1x512, .f32⟩
  | .hbm, ⟨30, _⟩ => ⟨S8192x6x512, .f32⟩
  | .hbm, ⟨31, _⟩ => ⟨S8192x6x512, .f32⟩
  | .hbm, ⟨32, _⟩ => ⟨S8192x6x512, .f32⟩
  | .hbm, ⟨33, _⟩ => ⟨S8192x6x1, .f32⟩
  | .hbm, ⟨34, _⟩ => ⟨S8192x1x6, .f32⟩
  | .hbm, ⟨35, _⟩ => ⟨S_, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1x1, .f32⟩
  | .hbm, ⟨41, _⟩ => ⟨S8192x1x6, .f32⟩
  | .hbm, ⟨42, _⟩ => ⟨S8192x1x6, .f32⟩
  | .hbm, ⟨43, _⟩ => ⟨S8192x1x6, .f32⟩
  | .hbm, ⟨44, _⟩ => ⟨S_, .f32⟩
  | .hbm, ⟨45, _⟩ => ⟨S8192x1, .f32⟩
  | .hbm, ⟨46, _⟩ => ⟨S8192x1x1, .f32⟩
  | .hbm, ⟨47, _⟩ => ⟨S8192x1x6, .f32⟩
  | .hbm, ⟨48, _⟩ => ⟨S8192x1x6, .f32⟩
  | .hbm, ⟨49, _⟩ => ⟨S8192x1x2048, .f32⟩
  | _, _ => ⟨S8192x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_c_1 : Ref sig .tc := ⟨.hbm, 15, rfl⟩
abbrev main_call2_v0 : Ref sig .tc := ⟨.hbm, 16, rfl⟩
abbrev main_v2 : Ref sig .tc := ⟨.hbm, 17, rfl⟩
abbrev main_c_2 : Ref sig .tc := ⟨.hbm, 18, rfl⟩
abbrev main_call3_v0 : Ref sig .tc := ⟨.hbm, 19, rfl⟩
abbrev main_v3 : Ref sig .tc := ⟨.hbm, 20, rfl⟩
abbrev main_c_3 : Ref sig .tc := ⟨.hbm, 21, rfl⟩
abbrev main_call4_v0 : Ref sig .tc := ⟨.hbm, 22, rfl⟩
abbrev main_v4 : Ref sig .tc := ⟨.hbm, 23, rfl⟩
abbrev main_c_4 : Ref sig .tc := ⟨.hbm, 24, rfl⟩
abbrev main_call5_v0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_cst_5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_6 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩

abbrev nD : Nat := 1
abbrev τ : Topo := Topo.v7x

variable {F : FTy → Type} [FloatOps F]

class Facts₀ : Prop where
  pads_S8192x1x1024_S8192x1x2048_000_000_010240 : S8192x1x1024.Pads (![0, 0, 0] : Fin 3 → Nat) ![0, 0, 1024] ![0, 0, 0] S8192x1x2048
  h_S_ : 0 < S_.numel
  pads_S8192x1x512_S8192x1x2048_000_000_015360 : S8192x1x512.Pads (![0, 0, 0] : Fin 3 → Nat) ![0, 0, 1536] ![0, 0, 0] S8192x1x2048
  concatenates_S8192x1x2048_S8192x1x2048_S8192x1x2048_S8192x1x2048_S8192x1x2048_S8192x1x2048_S8192x6x2048_d1 : Shape.Concatenates [S8192x1x2048, S8192x1x2048, S8192x1x2048, S8192x1x2048, S8192x1x2048, S8192x1x2048] S8192x6x2048 1
  bcast_S512_S1x1x512_2 : S512.BroadcastsInDim S1x1x512 (![2] : Fin 1 → Fin S1x1x512.rank)
  bcast_S1x1x512_S8192x6x512_0_1_2 : S1x1x512.BroadcastsInDim S8192x6x512 (![0, 1, 2] : Fin 3 → Fin S8192x6x512.rank)
  shapeCasts_S8192x6x1_S8192x1x6 : S8192x6x1.ShapeCasts S8192x1x6
  reducesTo_S8192x1x6_S8192x1_d2 : S8192x1x6.ReducesTo [2] S8192x1
  bcast_S_S8192x1 : S_.BroadcastsInDim S8192x1 (![] : Fin 0 → Fin S8192x1.rank)
  bcast_S8192x1_S8192x1x1_0_1 : S8192x1.BroadcastsInDim S8192x1x1 (![0, 1] : Fin 2 → Fin S8192x1x1.rank)
  bcast_S8192x1x1_S8192x1x6_0_1_2 : S8192x1x1.BroadcastsInDim S8192x1x6 (![0, 1, 2] : Fin 3 → Fin S8192x1x6.rank)
  dot_S8192x6x2048_S512x2048_S8192x6x512_2_1_01_0_n_n_wf : DotDims.WF S8192x6x2048 S512x2048 S8192x6x512 [2] [1] [0, 1] [0] [] []
  dot_S8192x6x512_S512x1_S8192x6x1_2_0_01_1_n_n_wf : DotDims.WF S8192x6x512 S512x1 S8192x6x1 [2] [0] [0, 1] [1] [] []
  dot_S8192x1x6_S8192x6x2048_S8192x1x2048_2_1_1_2_0_0_wf : DotDims.WF S8192x1x6 S8192x6x2048 S8192x1x2048 [2] [1] [1] [2] [0] [0]

variable [Facts₀]

def dot_S8192x6x2048_S512x2048_S8192x6x512_2_1_01_0_n_n : DotDims S8192x6x2048 S512x2048 S8192x6x512 where
  lhsContracting := [2]
  rhsContracting := [1]
  lhsNonContracting := [0, 1]
  rhsNonContracting := [0]
  lhsBatch := []
  rhsBatch := []
  wf := dot_S8192x6x2048_S512x2048_S8192x6x512_2_1_01_0_n_n_wf
def dot_S8192x6x512_S512x1_S8192x6x1_2_0_01_1_n_n : DotDims S8192x6x512 S512x1 S8192x6x1 where
  lhsContracting := [2]
  rhsContracting := [0]
  lhsNonContracting := [0, 1]
  rhsNonContracting := [1]
  lhsBatch := []
  rhsBatch := []
  wf := dot_S8192x6x512_S512x1_S8192x6x1_2_0_01_1_n_n_wf
def dot_S8192x1x6_S8192x6x2048_S8192x1x2048_2_1_1_2_0_0 : DotDims S8192x1x6 S8192x6x2048 S8192x1x2048 where
  lhsContracting := [2]
  rhsContracting := [1]
  lhsNonContracting := [1]
  rhsNonContracting := [2]
  lhsBatch := [0]
  rhsBatch := [0]
  wf := dot_S8192x1x6_S8192x6x2048_S8192x1x2048_2_1_1_2_0_0_wf

class Facts : Prop extends Facts₀ where

variable [Facts]
-- ==== Proof.SoftmaxLaw.lean ====
/-
  Algebra on the extended reals behind a six-way attention over node types.

  * A row of features padded with zeros contributes to a contraction exactly what the unpadded row does
    (`sum_pad`): a zero factor annihilates its term on the extended reals, at an infinite weight too.
  * A score `∑ o, tanh (·) * h o` with real `h` is a real (`tanh` is bounded, at the infinities too).
  * Six real scores: the maximum taken as a fold from `-∞` is the maximum taken as a tree of pairwise maxima; the
    exponentials of the differences are positive reals, so their sum is a nonzero real, and the quotient by it is the
    product with its reciprocal: the softmax weights in the two forms agree.
-/
import Idealize.ShloMosaic.PureOps.Ideal
import Mathlib.Algebra.BigOperators.Fin

open scoped BigOperators

noncomputable section

namespace Cert.NodeAttn

open Idealize.ShloMosaic

/-! ## A zero-padded contraction -/

/-- A sum over `Fin n` whose terms vanish from position `d` on is the sum of its first `d` terms. -/
theorem sum_pad {d n : ℕ} (hd : d ≤ n) (x : Fin d → EReal) (w : Fin n → EReal) :
    (∑ l : Fin n, (if h : l.val < d then x ⟨l.val, h⟩ else 0) * w l) = ∑ l : Fin d, x l * w (Fin.castLE hd l) := by
  classical
  have hsub : (Finset.univ.map (Fin.castLEEmb hd)) ⊆ (Finset.univ : Finset (Fin n)) := Finset.subset_univ _
  rw [← Finset.sum_subset hsub (fun l _ hl => ?_), Finset.sum_map]
  · refine Finset.sum_congr rfl fun j _ => ?_
    have hj : (Fin.castLEEmb hd j).val < d := j.isLt
    rw [dif_pos hj]
    rfl
  · have hl' : ¬ l.val < d := fun h => hl (Finset.mem_map.mpr ⟨⟨l.val, h⟩, Finset.mem_univ _, Fin.ext rfl⟩)
    rw [dif_neg hl', zero_mul]

/-! ## Reals among the extended reals -/

/-- The property of being a real number. -/
def IsReal (x : EReal) : Prop := ∃ r : ℝ, x = (r : EReal)

theorem isReal_tanh (x : EReal) : IsReal (Ideal.tanh x) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem isReal_sum {ι : Type*} (s : Finset ι) (f : ι → EReal) (h : ∀ i ∈ s, IsReal (f i)) : IsReal (∑ i ∈ s, f i) := by
  classical
  induction s using Finset.induction_on with
  | empty => exact ⟨0, by rw [Finset.sum_empty, EReal.coe_zero]⟩
  | insert a s ha ih =>
    rw [Finset.sum_insert ha]
    exact (h a (Finset.mem_insert_self a s)).add (ih fun i hi => h i (Finset.mem_insert_of_mem hi))

/-- A score against real coefficients is a real, whatever the pre-activations are. -/
theorem isReal_score {n : ℕ} (z h : Fin n → EReal) (hh : ∀ o, IsReal (h o)) : IsReal (∑ o, Ideal.tanh (z o) * h o) :=
  isReal_sum _ _ fun o _ => (isReal_tanh (z o)).mul (hh o)

/-! ## Six scores: two spellings of the softmax weights -/

/-- The maximum as a tree of pairwise maxima. -/
def mTree (s : Fin 6 → EReal) : EReal := max (max (max (s 0) (s 1)) (max (s 2) (s 3))) (max (s 4) (s 5))

/-- The exponential of a score's distance below the maximum. -/
def eTree (s : Fin 6 → EReal) (k : Fin 6) : EReal := Ideal.exp (s k - mTree s)

/-- The sum of the six exponentials, added left to right. -/
def dTree (s : Fin 6 → EReal) : EReal :=
  ((((eTree s 0 + eTree s 1) + eTree s 2) + eTree s 3) + eTree s 4) + eTree s 5

/-- The weight as the exponential times the reciprocal of the sum. -/
def wTree (s : Fin 6 → EReal) (k : Fin 6) : EReal := eTree s k * Ideal.div 1 (dTree s)

/-- The maximum as a fold from `-∞`, joined once more with `-∞`. -/
def mFold (s : Fin 6 → EReal) : EReal := max ⊥ ((Finset.univ : Finset (Fin 6)).fold max ⊥ s)

/-- The weight as the exponential divided by the sum from zero. -/
def wFold (s : Fin 6 → EReal) (k : Fin 6) : EReal :=
  Ideal.div (Ideal.exp (s k - mFold s)) (0 + ∑ j : Fin 6, Ideal.exp (s j - mFold s))

theorem mFold_eq (s : Fin 6 → EReal) : mFold s = mTree s := by
  unfold mFold mTree
  rw [max_eq_right bot_le]
  have e : (Finset.univ : Finset (Fin 6)).fold max ⊥ s = Finset.univ.sup s := rfl
  rw [e]
  apply le_antisymm
  · refine Finset.sup_le fun k _ => ?_
    fin_cases k <;> simp [le_max_iff]
  · have h (k : Fin 6) : s k ≤ Finset.univ.sup s := Finset.le_sup (Finset.mem_univ k)
    exact max_le (max_le (max_le (h 0) (h 1)) (max_le (h 2) (h 3))) (max_le (h 4) (h 5))

theorem isReal_mTree (s : Fin 6 → EReal) (hs : ∀ k, IsReal (s k)) : IsReal (mTree s) := by
  have hmax : ∀ {x y : EReal}, IsReal x → IsReal y → IsReal (max x y) := by
    intro x y hx hy
    rcases le_total x y with h | h
    · rw [max_eq_right h]; exact hy
    · rw [max_eq_left h]; exact hx
  exact hmax (hmax (hmax (hs 0) (hs 1)) (hmax (hs 2) (hs 3))) (hmax (hs 4) (hs 5))

/-- Each exponential is a positive real. -/
theorem eTree_pos (s : Fin 6 → EReal) (hs : ∀ k, IsReal (s k)) (k : Fin 6) : ∃ r : ℝ, 0 < r ∧ eTree s k = (r : EReal) := by
  obtain ⟨a, ha⟩ := hs k
  obtain ⟨b, hb⟩ := isReal_mTree s hs
  refine ⟨Real.exp (a - b), Real.exp_pos _, ?_⟩
  unfold eTree
  rw [ha, hb, ← EReal.coe_sub, Ideal.exp_coe]

/-- The sum of the exponentials is a nonzero real. -/
theorem dTree_real (s : Fin 6 → EReal) (hs : ∀ k, IsReal (s k)) : ∃ r : ℝ, r ≠ 0 ∧ dTree s = (r : EReal) := by
  obtain ⟨r0, p0, h0⟩ := eTree_pos s hs 0
  obtain ⟨r1, p1, h1⟩ := eTree_pos s hs 1
  obtain ⟨r2, p2, h2⟩ := eTree_pos s hs 2
  obtain ⟨r3, p3, h3⟩ := eTree_pos s hs 3
  obtain ⟨r4, p4, h4⟩ := eTree_pos s hs 4
  obtain ⟨r5, p5, h5⟩ := eTree_pos s hs 5
  refine ⟨((((r0 + r1) + r2) + r3) + r4) + r5, by positivity, ?_⟩
  unfold dTree
  rw [h0, h1, h2, h3, h4, h5]
  simp only [EReal.coe_add]

/-- On real scores the two spellings of a weight agree. -/
theorem wFold_eq (s : Fin 6 → EReal) (hs : ∀ k, IsReal (s k)) (k : Fin 6) : wFold s k = wTree s k := by
  obtain ⟨d, hd, hD⟩ := dTree_real s hs
  have hsum : (0 + ∑ j : Fin 6, Ideal.exp (s j - mFold s)) = dTree s := by
    rw [zero_add, Fin.sum_univ_six, mFold_eq]
    rfl
  unfold wFold wTree
  rw [hsum, hD, Ideal.div_coe hd, Ideal.div_coe hd, one_mul, mFold_eq]
  rfl

/-! ## The weighted sum of six rows -/

theorem mix6 (β x : Fin 6 → EReal) :
    (∑ k : Fin 6, β k * x k) = ((((β 0 * x 0 + β 1 * x 1) + β 2 * x 2) + β 3 * x 3) + β 4 * x 4) + β 5 * x 5 :=
  Fin.sum_univ_six _

end Cert.NodeAttn

end
-- ==== Proof.RowSpec.lean ====
/-
  One batch row of the six-way node attention, as a function of the row's six feature vectors (two of width 1024, four
  of width 512), the weight matrix `W` (512 × 2048), the bias `b` and the scoring vector `h` (both of length 512).

  Node type `k` with features `x` of width `K` scores `∑ o, tanh (∑ l < K, x l · W o l + b o) · h o`; the six scores
  are turned into softmax weights `β`; the row of the result is `∑ k, β k · x_k` with every `x_k` padded by zeros to
  width 2048: all six types on columns below 512, the two wide ones on columns 512 to 1023, nothing beyond.

  `rowOut` writes this the first way (unpadded contractions, the three column ranges apart, the weights as a product with a
  reciprocal); `refRowOut` the second way (everything padded to 2048, the weights as a quotient). They agree when `h` is real.
-/
import proofs.«177756_j18872086298924_2_alg».proof.Proof.SoftmaxLaw

open scoped BigOperators

noncomputable section

namespace Cert.NodeAttn

open Idealize.ShloMosaic

/-- The score of one node type from its unpadded features of width `K`. -/
def rowScore {K : ℕ} (hK : K ≤ 2048) (x : Fin K → EReal) (W : Fin 512 → Fin 2048 → EReal) (b h : Fin 512 → EReal) : EReal :=
  ∑ o : Fin 512, Ideal.tanh ((∑ l : Fin K, x l * W o (Fin.castLE hK l)) + b o) * h o

/-- The six scores of a row. -/
def rowScores (ls : Fin 1024 → EReal) (a lm at' : Fin 512 → EReal) (ds : Fin 1024 → EReal) (dm : Fin 512 → EReal)
    (W : Fin 512 → Fin 2048 → EReal) (b h : Fin 512 → EReal) : Fin 6 → EReal :=
  ![rowScore (by decide) ls W b h, rowScore (by decide) a W b h, rowScore (by decide) lm W b h,
    rowScore (by decide) at' W b h, rowScore (by decide) ds W b h, rowScore (by decide) dm W b h]

/-- The row of the result, column range by column range. -/
def rowOut (ls : Fin 1024 → EReal) (a lm at' : Fin 512 → EReal) (ds : Fin 1024 → EReal) (dm : Fin 512 → EReal)
    (W : Fin 512 → Fin 2048 → EReal) (b h : Fin 512 → EReal) (c : Fin 2048) : EReal :=
  if h1 : c.val < 512 then
    ((((wTree (rowScores ls a lm at' ds dm W b h) 0 * ls ⟨c.val, by omega⟩
        + wTree (rowScores ls a lm at' ds dm W b h) 1 * a ⟨c.val, h1⟩)
        + wTree (rowScores ls a lm at' ds dm W b h) 2 * lm ⟨c.val, h1⟩)
        + wTree (rowScores ls a lm at' ds dm W b h) 3 * at' ⟨c.val, h1⟩)
        + wTree (rowScores ls a lm at' ds dm W b h) 4 * ds ⟨c.val, by omega⟩)
        + wTree (rowScores ls a lm at' ds dm W b h) 5 * dm ⟨c.val, h1⟩
  else if h2 : c.val < 1024 then
    wTree (rowScores ls a lm at' ds dm W b h) 0 * ls ⟨c.val, h2⟩ + wTree (rowScores ls a lm at' ds dm W b h) 4 * ds ⟨c.val, h2⟩
  else 0

/-- A feature vector of width `K` padded with zeros to width 2048. -/
def padRow {K : ℕ} (x : Fin K → EReal) (l : Fin 2048) : EReal := if h : l.val < K then x ⟨l.val, h⟩ else 0

/-- The score of one node type from its padded features. -/
def refScore (x : Fin 2048 → EReal) (W : Fin 512 → Fin 2048 → EReal) (b h : Fin 512 → EReal) : EReal :=
  ∑ o : Fin 512, Ideal.tanh ((∑ l : Fin 2048, x l * W o l) + b o) * h o

theorem refScore_padRow {K : ℕ} (hK : K ≤ 2048) (x : Fin K → EReal) (W : Fin 512 → Fin 2048 → EReal) (b h : Fin 512 → EReal) :
    refScore (padRow x) W b h = rowScore hK x W b h := by
  unfold refScore rowScore
  refine Finset.sum_congr rfl fun o _ => ?_
  have e : (∑ l : Fin 2048, padRow x l * W o l) = ∑ l : Fin K, x l * W o (Fin.castLE hK l) := sum_pad hK x (W o)
  rw [e]

/-- The padded features of the six node types of a row. -/
def padRows (ls : Fin 1024 → EReal) (a lm at' : Fin 512 → EReal) (ds : Fin 1024 → EReal) (dm : Fin 512 → EReal) :
    Fin 6 → Fin 2048 → EReal :=
  ![padRow ls, padRow a, padRow lm, padRow at', padRow ds, padRow dm]

/-- The row of the result from the padded features: softmax weights as quotients, one sum over the six types. -/
def refRowOut (N : Fin 6 → Fin 2048 → EReal) (W : Fin 512 → Fin 2048 → EReal) (b h : Fin 512 → EReal) (c : Fin 2048) : EReal :=
  ∑ k : Fin 6, wFold (fun k' => refScore (N k') W b h) k * N k c

theorem refScores_padRows (ls : Fin 1024 → EReal) (a lm at' : Fin 512 → EReal) (ds : Fin 1024 → EReal) (dm : Fin 512 → EReal)
    (W : Fin 512 → Fin 2048 → EReal) (b h : Fin 512 → EReal) :
    (fun k' => refScore (padRows ls a lm at' ds dm k') W b h) = rowScores ls a lm at' ds dm W b h := by
  funext k
  fin_cases k <;> exact refScore_padRow _ _ W b h

theorem isReal_rowScore {K : ℕ} (hK : K ≤ 2048) (x : Fin K → EReal) (W : Fin 512 → Fin 2048 → EReal) (b h : Fin 512 → EReal)
    (hh : ∀ o, IsReal (h o)) : IsReal (rowScore hK x W b h) :=
  isReal_score (fun o => (∑ l : Fin K, x l * W o (Fin.castLE hK l)) + b o) h hh

theorem isReal_rowScores (ls : Fin 1024 → EReal) (a lm at' : Fin 512 → EReal) (ds : Fin 1024 → EReal) (dm : Fin 512 → EReal)
    (W : Fin 512 → Fin 2048 → EReal) (b h : Fin 512 → EReal) (hh : ∀ o, IsReal (h o)) (k : Fin 6) :
    IsReal (rowScores ls a lm at' ds dm W b h k) := by
  fin_cases k
  · exact isReal_rowScore _ ls W b h hh
  · exact isReal_rowScore _ a W b h hh
  · exact isReal_rowScore _ lm W b h hh
  · exact isReal_rowScore _ at' W b h hh
  · exact isReal_rowScore _ ds W b h hh
  · exact isReal_rowScore _ dm W b h hh

theorem padRow_of_lt {K : ℕ} (x : Fin K → EReal) (c : Fin 2048) (h : c.val < K) : padRow x c = x ⟨c.val, h⟩ := dif_pos h
theorem padRow_of_not_lt {K : ℕ} (x : Fin K → EReal) (c : Fin 2048) (h : ¬ c.val < K) : padRow x c = 0 := dif_neg h

/-- With a real scoring vector the two forms of the row agree, at every column. -/
theorem refRowOut_eq (ls : Fin 1024 → EReal) (a lm at' : Fin 512 → EReal) (ds : Fin 1024 → EReal) (dm : Fin 512 → EReal)
    (W : Fin 512 → Fin 2048 → EReal) (b h : Fin 512 → EReal) (hh : ∀ o, IsReal (h o)) (c : Fin 2048) :
    refRowOut (padRows ls a lm at' ds dm) W b h c = rowOut ls a lm at' ds dm W b h c := by
  unfold refRowOut
  rw [refScores_padRows, mix6]
  simp only [wFold_eq _ (isReal_rowScores ls a lm at' ds dm W b h hh)]
  show ((((_ * padRow ls c + _ * padRow a c) + _ * padRow lm c) + _ * padRow at' c) + _ * padRow ds c) + _ * padRow dm c = _
  unfold rowOut
  by_cases h1 : c.val < 512
  · have h2 : c.val < 1024 := by omega
    rw [dif_pos h1, padRow_of_lt ls c h2, padRow_of_lt a c h1, padRow_of_lt lm c h1, padRow_of_lt at' c h1,
      padRow_of_lt ds c h2, padRow_of_lt dm c h1]
  · rw [dif_neg h1, padRow_of_not_lt a c h1, padRow_of_not_lt lm c h1, padRow_of_not_lt at' c h1, padRow_of_not_lt dm c h1]
    by_cases h2 : c.val < 1024
    · rw [dif_pos h2, padRow_of_lt ls c h2, padRow_of_lt ds c h2]
      simp only [mul_zero, add_zero]
    · rw [dif_neg h2, padRow_of_not_lt ls c h2, padRow_of_not_lt ds c h2]
      simp only [mul_zero, add_zero]

end Cert.NodeAttn

end
-- ==== Proof.ArraySpec.lean ====
/-
  The six-way node attention over whole arrays: every batch row of the result is `rowOut` of that row of the six
  feature arrays. Stated twice: over matrices with any number of rows (what a block of rows, and the whole batch
  as the kernel sees it, compute), and over the rank-3 arrays `[8192, 1, d]` the program takes and returns.
-/
import proofs.«177756_j18872086298924_2_alg».proof.Proof.RowSpec
import Idealize.ShloMosaic.Lib.ValueIdx

noncomputable section

namespace Cert.NodeAttn

open Idealize.ShloMosaic Idealize.ShloMosaic.ValueIdx

/-- `R` rows at once, over matrices: row `p` of the result is `rowOut` of row `p` of each feature matrix; the bias
    and the scoring vector are given as single rows. -/
def rows2 {R : ℕ} (x0 : (⟨2, ![R, 1024]⟩ : Shape).Idx → EReal) (x1 x2 x3 : (⟨2, ![R, 512]⟩ : Shape).Idx → EReal)
    (x4 : (⟨2, ![R, 1024]⟩ : Shape).Idx → EReal) (x5 : (⟨2, ![R, 512]⟩ : Shape).Idx → EReal)
    (w : (⟨2, ![512, 2048]⟩ : Shape).Idx → EReal) (b h : (⟨2, ![1, 512]⟩ : Shape).Idx → EReal) :
    (⟨2, ![R, 2048]⟩ : Shape).Idx → EReal := fun j =>
  rowOut (fun l => x0 (ix2 (j 0 : Fin R) l)) (fun l => x1 (ix2 (j 0 : Fin R) l)) (fun l => x2 (ix2 (j 0 : Fin R) l))
    (fun l => x3 (ix2 (j 0 : Fin R) l)) (fun l => x4 (ix2 (j 0 : Fin R) l)) (fun l => x5 (ix2 (j 0 : Fin R) l))
    (fun o l => w (ix2 o l)) (fun o => b (ix2 (0 : Fin 1) o)) (fun o => h (ix2 (0 : Fin 1) o)) (j 1 : Fin 2048)

theorem rows2_apply {R : ℕ} (x0 : (⟨2, ![R, 1024]⟩ : Shape).Idx → EReal) (x1 x2 x3 : (⟨2, ![R, 512]⟩ : Shape).Idx → EReal)
    (x4 : (⟨2, ![R, 1024]⟩ : Shape).Idx → EReal) (x5 : (⟨2, ![R, 512]⟩ : Shape).Idx → EReal)
    (w : (⟨2, ![512, 2048]⟩ : Shape).Idx → EReal) (b h : (⟨2, ![1, 512]⟩ : Shape).Idx → EReal) (p : Fin R) (c : Fin 2048) :
    rows2 x0 x1 x2 x3 x4 x5 w b h (ix2 p c)
      = rowOut (fun l => x0 (ix2 p l)) (fun l => x1 (ix2 p l)) (fun l => x2 (ix2 p l)) (fun l => x3 (ix2 p l))
          (fun l => x4 (ix2 p l)) (fun l => x5 (ix2 p l)) (fun o l => w (ix2 o l)) (fun o => b (ix2 (0 : Fin 1) o))
          (fun o => h (ix2 (0 : Fin 1) o)) c := rfl

/-- The result array `[8192, 1, 2048]` of the argument arrays `[8192, 1, d]`, `W`, `b` and `h` (a `[512, 1]` column). -/
def G (ls : (⟨3, ![8192, 1, 1024]⟩ : Shape).Idx → EReal) (a lm at' : (⟨3, ![8192, 1, 512]⟩ : Shape).Idx → EReal)
    (ds : (⟨3, ![8192, 1, 1024]⟩ : Shape).Idx → EReal) (dm : (⟨3, ![8192, 1, 512]⟩ : Shape).Idx → EReal)
    (W : (⟨2, ![512, 2048]⟩ : Shape).Idx → EReal) (b : (⟨1, ![512]⟩ : Shape).Idx → EReal)
    (h : (⟨2, ![512, 1]⟩ : Shape).Idx → EReal) : (⟨3, ![8192, 1, 2048]⟩ : Shape).Idx → EReal := fun i =>
  rowOut (fun l => ls (ix3 (i 0 : Fin 8192) (0 : Fin 1) l)) (fun l => a (ix3 (i 0 : Fin 8192) (0 : Fin 1) l))
    (fun l => lm (ix3 (i 0 : Fin 8192) (0 : Fin 1) l)) (fun l => at' (ix3 (i 0 : Fin 8192) (0 : Fin 1) l))
    (fun l => ds (ix3 (i 0 : Fin 8192) (0 : Fin 1) l)) (fun l => dm (ix3 (i 0 : Fin 8192) (0 : Fin 1) l))
    (fun o l => W (ix2 o l)) (fun o => b (ix1 o)) (fun o => h (ix2 o (0 : Fin 1))) (i 2 : Fin 2048)

theorem G_apply (ls : (⟨3, ![8192, 1, 1024]⟩ : Shape).Idx → EReal) (a lm at' : (⟨3, ![8192, 1, 512]⟩ : Shape).Idx → EReal)
    (ds : (⟨3, ![8192, 1, 1024]⟩ : Shape).Idx → EReal) (dm : (⟨3, ![8192, 1, 512]⟩ : Shape).Idx → EReal)
    (W : (⟨2, ![512, 2048]⟩ : Shape).Idx → EReal) (b : (⟨1, ![512]⟩ : Shape).Idx → EReal)
    (h : (⟨2, ![512, 1]⟩ : Shape).Idx → EReal) (p : Fin 8192) (u : Fin 1) (c : Fin 2048) :
    G ls a lm at' ds dm W b h (ix3 p u c)
      = rowOut (fun l => ls (ix3 p (0 : Fin 1) l)) (fun l => a (ix3 p (0 : Fin 1) l)) (fun l => lm (ix3 p (0 : Fin 1) l))
          (fun l => at' (ix3 p (0 : Fin 1) l)) (fun l => ds (ix3 p (0 : Fin 1) l)) (fun l => dm (ix3 p (0 : Fin 1) l))
          (fun o l => W (ix2 o l)) (fun o => b (ix1 o)) (fun o => h (ix2 o (0 : Fin 1))) c := rfl

end Cert.NodeAttn

end
-- ==== Proof.LibDotNT.lean ====
/-
  A product of an M×K matrix with the TRANSPOSE of an N×K matrix, read at an entry.

  With the contraction taken over the last axis of both operands, entry (p, q) of the result is the sum over k of
  l (p, k) · r (q, k). Over the extended reals, with exact operations, this holds of the matrix unit's product into a
  zero accumulator and of the host's general dot product alike, for all extents M, K, N: there is no rounding and no
  order of summation left in either.
-/
import Idealize.ShloMosaic.PureOps.Ideal.Laws
import Idealize.ShloMosaic.Lib.ValueIdx

open scoped BigOperators

noncomputable section

namespace Cert.Lib.DotNT

open Idealize.ShloMosaic Idealize.ShloMosaic.ValueIdx

variable {M K N : Nat}

/-- The left operand is read at the result's row … -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- … and at the contraction position; -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- the right operand at the result's column, as ITS row, … -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- … and at the contraction position. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The sum over the one-axis contraction shape, as a sum over `Fin K` of the operands at (p, k) and (q, k). -/
theorem sum_contr {φ₁ φ₂ : FTy} (l : FVec Ideal (⟨2, ![M, K]⟩ : Shape) φ₁) (r : FVec Ideal (⟨2, ![N, K]⟩ : Shape) φ₂)
    (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- The matrix unit's product into a zero accumulator, at entry (p, q). -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply _ prec l r (ix2 p q)).trans (sum_contr l r p q)

/-- The host's general dot product, at entry (p, q). -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply _ prec sched l r (ix2 p q)).trans (sum_contr l r p q)

end Cert.Lib.DotNT

end
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.KernelBlock.lean ====
/-
  What the kernel body stores for one block of 512 batch rows, read at an index, at the ideal values.

  The body computes six score columns (a contraction of each feature block with the matching leading columns of `W`,
  plus the bias row, through `tanh`, times the scoring row, summed along the row), their maximum as a tree of pairwise
  maxima, the six exponentials, the reciprocal of their sum, the six weights, and stores three column ranges of the
  result: columns 0–511 (all six node types), 512–1023 (the two wide ones) and 1024–2047 (zeros). Each stored value,
  at `(r, c)`, is `rowOut` of row `r` of the feature blocks at the column its place in the block names: the three
  pieces are restrictions of one function of the block, `rows2`.
-/
import proofs.«177756_j18872086298924_2_alg».proof.Proof.Gen.KernelIdeal.Skeleton
import proofs.«177756_j18872086298924_2_alg».proof.Proof.ArraySpec
import proofs.«177756_j18872086298924_2_alg».proof.Proof.LibDotNT
import proofs.«177756_j18872086298924_2_alg».proof.Proof.LibRowReads
import proofs.«177756_j18872086298924_2_alg».proof.Proof.LibColumnReads
import Idealize.ShloMosaic.Lib.ValueLayout
import Idealize.ShloMosaic.Lib.Pipeline.Value

set_option maxRecDepth 8192

open scoped BigOperators

noncomputable section

namespace Cert.KernelIdeal.Block

open Cert.KernelIdeal Cert.KernelIdeal.Gen Idealize.ShloMosaic Idealize.ShloMosaic.ValueIdx
open Cert.NodeAttn

/-! ## One score column -/

/-- The score of every row of a feature block `x` against weight rows `w` of the same width, a bias row `v1` and a
    scoring row `v3`, read at row `r`. -/
theorem scoreVec_apply {K : ℕ} (x : FVec Ideal ⟨2, ![512, K]⟩ .f32) (w : FVec Ideal ⟨2, ![512, K]⟩ .bf16)
    (v1 v3 : FVec Ideal ⟨2, ![1, 512]⟩ .f32)
    (hb : (⟨2, ![1, 512]⟩ : Shape).Broadcasts ⟨2, ![512, 512]⟩) (hr : (⟨2, ![512, 512]⟩ : Shape).Reduces [1] ⟨1, ![512]⟩)
    (hφ : FKind.Formats .f32) (hacc : (0x00000000#32 : BitVec 32) = FKind.add.neutral .f32 hφ) (hlt : FTy.bf16.bits < FTy.f32.bits)
    (r : Fin 512) :
    multiReduction (F := Ideal) .add [1] ⟨1, ![512]⟩
        (mulf (tanh (addf (matmul (DotDims.transposedRhs 512 K 512) none (truncf .bf16 x hlt) w
            (constant ⟨2, ![512, 512]⟩ .f32 0x00000000#32)) (broadcastTo ⟨2, ![512, 512]⟩ v1 hb)))
          (broadcastTo ⟨2, ![512, 512]⟩ v3 hb)) 0x00000000#32 hr hφ hacc (ix1 r)
      = ∑ o : Fin 512, Ideal.tanh ((∑ l : Fin K, x (ix2 r l) * w (ix2 o l)) + v1 (ix2 (0 : Fin 1) o)) * v3 (ix2 (0 : Fin 1) o) := by
  rw [Cert.LibRowReads.rowSum_apply]
  refine Finset.sum_congr rfl fun o _ => ?_
  show Ideal.tanh (FloatOps.matmul (DotDims.transposedRhs 512 K 512) none (truncf .bf16 x hlt) w
        (constant ⟨2, ![512, 512]⟩ .f32 0x00000000#32) (ix2 r o) + broadcastTo ⟨2, ![512, 512]⟩ v1 hb (ix2 r o))
      * broadcastTo ⟨2, ![512, 512]⟩ v3 hb (ix2 r o) = _
  rw [Cert.Lib.DotNT.matmul_zero_apply, broadcastTo_1b_ab_apply, broadcastTo_1b_ab_apply]
  rfl

/-! ## The values that only rename or cut a loaded block -/

theorem pay8_eq (v0 : Vec Ideal S1x512 .f32) : k0_pay8 (F := Ideal) v0 = v0 := shapeCast_self _ _
theorem pay9_eq (v2 : Vec Ideal S1x512 .f32) : k0_pay9 (F := Ideal) v2 = v2 := shapeCast_self _ _
theorem pay13_eq (v8 : Vec Ideal S512x1024 .f32) : k0_pay13 (F := Ideal) v8 = v8 := shapeCast_self _ _
theorem pay14_eq (v : Vec Ideal S512x512 .f32) : k0_pay14 (F := Ideal) v = v := shapeCast_self _ _
theorem pay15_eq (v : Vec Ideal S512x512 .f32) : k0_pay15 (F := Ideal) v = v := shapeCast_self _ _
theorem pay16_eq (v : Vec Ideal S512x512 .f32) : k0_pay16 (F := Ideal) v = v := shapeCast_self _ _
theorem pay17_eq (v : Vec Ideal S512x1024 .f32) : k0_pay17 (F := Ideal) v = v := shapeCast_self _ _
theorem pay18_eq (v : Vec Ideal S512x512 .f32) : k0_pay18 (F := Ideal) v = v := shapeCast_self _ _

/-- The leading 1024 columns of the weight block. -/
theorem pay11_apply (v4 : Vec Ideal S512x2048 .bf16) (o : Fin 512) (l : Fin 1024) :
    k0_pay11 (F := Ideal) v4 (ix2 o l) = v4 (ix2 o (Fin.castLE (by decide) l)) := by
  show extractStridedSlice S512x1024 ![0, 0] (shapeCast S512x2048 v4 shapeCasts_S512x2048_S512x2048)
    slices_S512x2048_o0_0_S512x1024 (ix2 o l) = _
  rw [shapeCast_self]
  exact slice2_axis1_apply 0 v4 _ o l _ (Nat.zero_add _).symm

/-- The leading 512 columns of the weight block. -/
theorem pay12_apply (v4 : Vec Ideal S512x2048 .bf16) (o : Fin 512) (l : Fin 512) :
    k0_pay12 (F := Ideal) v4 (ix2 o l) = v4 (ix2 o (Fin.castLE (by decide) l)) := by
  show extractStridedSlice S512x512 ![0, 0] (shapeCast S512x2048 v4 shapeCasts_S512x2048_S512x2048)
    slices_S512x2048_o0_0_S512x512 (ix2 o l) = _
  rw [shapeCast_self]
  exact slice2_axis1_apply 0 v4 _ o l _ (Nat.zero_add _).symm

/-! ## The six score columns of a block -/

variable (x0 : Vec Ideal S512x1024 .f32) (x1 x2 x3 : Vec Ideal S512x512 .f32) (x4 : Vec Ideal S512x1024 .f32)
  (x5 : Vec Ideal S512x512 .f32) (x6 : Vec Ideal S512x2048 .bf16) (x7 x8 : Vec Ideal S1x512 .f32)

/-- The six scores of row `r` of the block. -/
def sc (r : Fin 512) : Fin 6 → EReal :=
  rowScores (fun l => x0 (ix2 r l)) (fun l => x1 (ix2 r l)) (fun l => x2 (ix2 r l)) (fun l => x3 (ix2 r l))
    (fun l => x4 (ix2 r l)) (fun l => x5 (ix2 r l)) (fun o l => x6 (ix2 o l)) (fun o => x7 (ix2 (0 : Fin 1) o))
    (fun o => x8 (ix2 (0 : Fin 1) o))

/-- A score column over the 1024 leading columns of the weight block. -/
theorem scoreWide (v1 v3 : FVec Ideal S1x512 .f32) (x : FVec Ideal S512x1024 .f32) (r : Fin 512) :
    shapeCast S512x1 (multiReduction (F := Ideal) .add [1] S512 (mulf (tanh (addf (matmul dot_S512x1024_S512x1024_S512x512_1_1_0_0_n_n none
      (truncf .bf16 x bitsLt_bf16_f32) (k0_pay11 x6) (constant S512x512 .f32 0x00000000#32))
      (broadcastTo S512x512 v1 broadcasts_S1x512_S512x512))) (broadcastTo S512x512 v3 broadcasts_S1x512_S512x512))
      0x00000000#32 reduces_S512x512_S512 (.inl rfl) rfl) shapeCasts_S512_S512x1 (ix2 r (0 : Fin 1))
      = rowScore (K := 1024) (by decide) (fun l => x (ix2 r l)) (fun o l => x6 (ix2 o l)) (fun o => v1 (ix2 (0 : Fin 1) o))
          (fun o => v3 (ix2 (0 : Fin 1) o)) := by
  rw [Cert.LibColumnReads.shapeCast_a_a1_apply]
  refine (scoreVec_apply (K := 1024) x (k0_pay11 x6) v1 v3 _ _ _ _ _ r).trans ?_
  unfold rowScore
  simp only [pay11_apply]

/-- A score column over the 512 leading columns of the weight block. -/
theorem scoreMid (v1 v3 : FVec Ideal S1x512 .f32) (x : FVec Ideal S512x512 .f32) (r : Fin 512) :
    shapeCast S512x1 (multiReduction (F := Ideal) .add [1] S512 (mulf (tanh (addf (matmul dot_S512x512_S512x512_S512x512_1_1_0_0_n_n none
      (truncf .bf16 x bitsLt_bf16_f32) (k0_pay12 x6) (constant S512x512 .f32 0x00000000#32))
      (broadcastTo S512x512 v1 broadcasts_S1x512_S512x512))) (broadcastTo S512x512 v3 broadcasts_S1x512_S512x512))
      0x00000000#32 reduces_S512x512_S512 (.inl rfl) rfl) shapeCasts_S512_S512x1 (ix2 r (0 : Fin 1))
      = rowScore (K := 512) (by decide) (fun l => x (ix2 r l)) (fun o l => x6 (ix2 o l)) (fun o => v1 (ix2 (0 : Fin 1) o))
          (fun o => v3 (ix2 (0 : Fin 1) o)) := by
  rw [Cert.LibColumnReads.shapeCast_a_a1_apply]
  refine (scoreVec_apply (K := 512) x (k0_pay12 x6) v1 v3 _ _ _ _ _ r).trans ?_
  unfold rowScore
  simp only [pay12_apply]

theorem score0 (r : Fin 512) : k0_pay19 (F := Ideal) x7 x8 x6 x0 (ix2 r (0 : Fin 1)) = sc x0 x1 x2 x3 x4 x5 x6 x7 x8 r 0 := by
  show shapeCast S512x1 (multiReduction (F := Ideal) .add [1] S512 (mulf (tanh (addf (matmul dot_S512x1024_S512x1024_S512x512_1_1_0_0_n_n none
      (truncf .bf16 (k0_pay13 x0) bitsLt_bf16_f32) (k0_pay11 x6) (constant S512x512 .f32 0x00000000#32))
      (broadcastTo S512x512 (k0_pay8 x7) broadcasts_S1x512_S512x512))) (broadcastTo S512x512 (k0_pay9 x8) broadcasts_S1x512_S512x512))
      0x00000000#32 reduces_S512x512_S512 (.inl rfl) rfl) shapeCasts_S512_S512x1 (ix2 r (0 : Fin 1)) = _
  rw [pay8_eq, pay9_eq, pay13_eq]
  exact scoreWide x6 x7 x8 x0 r

theorem score1 (r : Fin 512) :
    k0_pay21 (F := Ideal) (k0_pay20 x7 x8 x6 x1) (ix2 r (0 : Fin 1)) = sc x0 x1 x2 x3 x4 x5 x6 x7 x8 r 1 := by
  show shapeCast S512x1 (multiReduction (F := Ideal) .add [1] S512 (mulf (tanh (addf (matmul dot_S512x512_S512x512_S512x512_1_1_0_0_n_n none
      (truncf .bf16 (k0_pay14 x1) bitsLt_bf16_f32) (k0_pay12 x6) (constant S512x512 .f32 0x00000000#32))
      (broadcastTo S512x512 (k0_pay8 x7) broadcasts_S1x512_S512x512))) (broadcastTo S512x512 (k0_pay9 x8) broadcasts_S1x512_S512x512))
      0x00000000#32 reduces_S512x512_S512 (.inl rfl) rfl) shapeCasts_S512_S512x1 (ix2 r (0 : Fin 1)) = _
  rw [pay8_eq, pay9_eq, pay14_eq]
  exact scoreMid x6 x7 x8 x1 r

theorem score2 (r : Fin 512) :
    k0_pay22 (F := Ideal) (k0_pay8 x7) (k0_pay9 x8) (k0_pay12 x6) (k0_pay15 x2) (ix2 r (0 : Fin 1))
      = sc x0 x1 x2 x3 x4 x5 x6 x7 x8 r 2 := by
  rw [pay8_eq, pay9_eq, pay15_eq]
  exact scoreMid x6 x7 x8 x2 r

theorem score3 (r : Fin 512) :
    k0_pay23 (F := Ideal) (k0_pay8 x7) (k0_pay9 x8) (k0_pay12 x6) (k0_pay16 x3) (ix2 r (0 : Fin 1))
      = sc x0 x1 x2 x3 x4 x5 x6 x7 x8 r 3 := by
  rw [pay8_eq, pay9_eq, pay16_eq]
  exact scoreMid x6 x7 x8 x3 r

theorem score4 (r : Fin 512) :
    k0_pay24 (F := Ideal) (k0_pay8 x7) (k0_pay9 x8) (k0_pay11 x6) (k0_pay17 x4) (ix2 r (0 : Fin 1))
      = sc x0 x1 x2 x3 x4 x5 x6 x7 x8 r 4 := by
  rw [pay8_eq, pay9_eq, pay17_eq]
  exact scoreWide x6 x7 x8 x4 r

theorem score5 (r : Fin 512) :
    k0_pay25 (F := Ideal) (k0_pay8 x7) (k0_pay9 x8) (k0_pay12 x6) (k0_pay18 x5) (ix2 r (0 : Fin 1))
      = sc x0 x1 x2 x3 x4 x5 x6 x7 x8 r 5 := by
  rw [pay8_eq, pay9_eq, pay18_eq]
  exact scoreMid x6 x7 x8 x5 r

end Cert.KernelIdeal.Block

end
-- ==== Proof.KernelMix.lean ====
/-
  The second half of the kernel body at a row of the block, over the values the first half hands it: given the six
  score columns at row `r` (as hypotheses), the pairwise-maximum tree is `mTree`, the exponentials are `eTree`, the
  reciprocal of their left-to-right sum is `1 / dTree`, the weights are `wTree`, and the two stored products are the
  weighted sums of the feature blocks over their column ranges.
-/
import proofs.«177756_j18872086298924_2_alg».proof.Proof.Gen.KernelIdeal.Skeleton
import proofs.«177756_j18872086298924_2_alg».proof.Proof.ArraySpec
import proofs.«177756_j18872086298924_2_alg».proof.Proof.LibColumnReads
import Idealize.ShloMosaic.Lib.ValueLayout
import Idealize.ShloMosaic.Lib.Pipeline.Value
import Idealize.ShloMosaic.PureOps.IdealRules

set_option maxRecDepth 8192

noncomputable section

namespace Cert.KernelIdeal.Block

open Cert.KernelIdeal Cert.KernelIdeal.Gen Idealize.ShloMosaic Idealize.ShloMosaic.ValueIdx
open Cert.NodeAttn

theorem one_f32 : Ideal.ofBits .f32 0x3F800000#32 = (1 : EReal) := IdealRules.sign_bit.ideal_onePat .f32

/-! ## The maximum and five of the exponentials -/

section Soft

variable (v1 v3 : FVec Ideal S1x512 .f32) (v6 : FVec Ideal S512x1024 .bf16) (v7 : FVec Ideal S512x512 .bf16)
  (v13 v15 : FVec Ideal S512x512 .f32) (v17 : FVec Ideal S512x1024 .f32) (v19 : FVec Ideal S512x512 .f32)
  (v28 : FVec Ideal S512x1 .f32) (v36 : FVec Ideal S512 .f32) (r : Fin 512) (s : Fin 6 → EReal)
  (h0 : v28 (ix2 r (0 : Fin 1)) = s 0) (h1 : k0_pay21 (F := Ideal) v36 (ix2 r (0 : Fin 1)) = s 1)
  (h2 : k0_pay22 (F := Ideal) v1 v3 v7 v13 (ix2 r (0 : Fin 1)) = s 2)
  (h3 : k0_pay23 (F := Ideal) v1 v3 v7 v15 (ix2 r (0 : Fin 1)) = s 3)
  (h4 : k0_pay24 (F := Ideal) v1 v3 v6 v17 (ix2 r (0 : Fin 1)) = s 4)
  (h5 : k0_pay25 (F := Ideal) v1 v3 v7 v19 (ix2 r (0 : Fin 1)) = s 5)

include h0 h1 h2 h3 h4 h5

theorem pay26_at : k0_pay26 (F := Ideal) v1 v3 v6 v7 v13 v15 v17 v19 v28 v36 (ix2 r (0 : Fin 1)) = mTree s := by
  show max (max (max (v28 (ix2 r (0 : Fin 1))) (k0_pay21 (F := Ideal) v36 (ix2 r (0 : Fin 1))))
      (max (k0_pay22 (F := Ideal) v1 v3 v7 v13 (ix2 r (0 : Fin 1))) (k0_pay23 (F := Ideal) v1 v3 v7 v15 (ix2 r (0 : Fin 1)))))
      (max (k0_pay24 (F := Ideal) v1 v3 v6 v17 (ix2 r (0 : Fin 1))) (k0_pay25 (F := Ideal) v1 v3 v7 v19 (ix2 r (0 : Fin 1)))) = _
  rw [h0, h1, h2, h3, h4, h5]
  rfl

theorem pay27_at : k0_pay27 (F := Ideal) v1 v3 v6 v7 v13 v15 v17 v19 v28 v36 (ix2 r (0 : Fin 1)) = eTree s 0 := by
  show Ideal.exp (v28 (ix2 r (0 : Fin 1)) - k0_pay26 (F := Ideal) v1 v3 v6 v7 v13 v15 v17 v19 v28 v36 (ix2 r (0 : Fin 1))) = _
  rw [pay26_at v1 v3 v6 v7 v13 v15 v17 v19 v28 v36 r s h0 h1 h2 h3 h4 h5, h0]
  rfl

theorem pay28_at : k0_pay28 (F := Ideal) v1 v3 v6 v7 v13 v15 v17 v19 v28 v36 (ix2 r (0 : Fin 1)) = eTree s 1 := by
  show Ideal.exp (k0_pay21 (F := Ideal) v36 (ix2 r (0 : Fin 1)) - k0_pay26 (F := Ideal) v1 v3 v6 v7 v13 v15 v17 v19 v28 v36 (ix2 r (0 : Fin 1))) = _
  rw [pay26_at v1 v3 v6 v7 v13 v15 v17 v19 v28 v36 r s h0 h1 h2 h3 h4 h5, h1]
  rfl

theorem pay29_at : k0_pay29 (F := Ideal) v1 v3 v6 v7 v13 v15 v17 v19 v28 v36 (ix2 r (0 : Fin 1)) = eTree s 2 := by
  show Ideal.exp (k0_pay22 (F := Ideal) v1 v3 v7 v13 (ix2 r (0 : Fin 1)) - k0_pay26 (F := Ideal) v1 v3 v6 v7 v13 v15 v17 v19 v28 v36 (ix2 r (0 : Fin 1))) = _
  rw [pay26_at v1 v3 v6 v7 v13 v15 v17 v19 v28 v36 r s h0 h1 h2 h3 h4 h5, h2]
  rfl

theorem pay30_at : k0_pay30 (F := Ideal) v1 v3 v6 v7 v13 v15 v17 v19 v28 v36 (ix2 r (0 : Fin 1)) = eTree s 3 := by
  show Ideal.exp (k0_pay23 (F := Ideal) v1 v3 v7 v15 (ix2 r (0 : Fin 1)) - k0_pay26 (F := Ideal) v1 v3 v6 v7 v13 v15 v17 v19 v28 v36 (ix2 r (0 : Fin 1))) = _
  rw [pay26_at v1 v3 v6 v7 v13 v15 v17 v19 v28 v36 r s h0 h1 h2 h3 h4 h5, h3]
  rfl

theorem pay31_at : k0_pay31 (F := Ideal) v1 v3 v6 v7 v13 v15 v17 v19 v28 v36 (ix2 r (0 : Fin 1)) = eTree s 4 := by
  show Ideal.exp (k0_pay24 (F := Ideal) v1 v3 v6 v17 (ix2 r (0 : Fin 1)) - k0_pay26 (F := Ideal) v1 v3 v6 v7 v13 v15 v17 v19 v28 v36 (ix2 r (0 : Fin 1))) = _
  rw [pay26_at v1 v3 v6 v7 v13 v15 v17 v19 v28 v36 r s h0 h1 h2 h3 h4 h5, h4]
  rfl

end Soft

/-! ## The sixth exponential, the reciprocal, the weights and the stored sums -/

section Mix

variable (v9 : FVec Ideal S512x1024 .f32) (v11 v13 v15 : FVec Ideal S512x512 .f32) (v17 : FVec Ideal S512x1024 .f32)
  (v19 : FVec Ideal S512x512 .f32) (v73 v78 v80 v82 v84 v86 v88 : FVec Ideal S512x1 .f32) (r : Fin 512) (s : Fin 6 → EReal)
  (g73 : v73 (ix2 r (0 : Fin 1)) = s 5) (g78 : v78 (ix2 r (0 : Fin 1)) = mTree s)
  (g80 : v80 (ix2 r (0 : Fin 1)) = eTree s 0) (g82 : v82 (ix2 r (0 : Fin 1)) = eTree s 1)
  (g84 : v84 (ix2 r (0 : Fin 1)) = eTree s 2) (g86 : v86 (ix2 r (0 : Fin 1)) = eTree s 3)
  (g88 : v88 (ix2 r (0 : Fin 1)) = eTree s 4)

include g73 g78 in
theorem pay1_at : k0_pay1 (F := Ideal) v73 v78 (ix2 r (0 : Fin 1)) = eTree s 5 := by
  show Ideal.exp (v73 (ix2 r (0 : Fin 1)) - v78 (ix2 r (0 : Fin 1))) = _
  rw [g73, g78]
  rfl

include g73 g78 g80 g82 g84 g86 g88

theorem pay2_at : k0_pay2 (F := Ideal) v73 v78 v80 v82 v84 v86 v88 (ix2 r (0 : Fin 1)) = Ideal.div 1 (dTree s) := by
  show Ideal.div (Ideal.ofBits .f32 0x3F800000#32)
    (((((v80 (ix2 r (0 : Fin 1)) + v82 (ix2 r (0 : Fin 1))) + v84 (ix2 r (0 : Fin 1))) + v86 (ix2 r (0 : Fin 1)))
      + v88 (ix2 r (0 : Fin 1))) + k0_pay1 (F := Ideal) v73 v78 (ix2 r (0 : Fin 1))) = _
  rw [pay1_at v73 v78 r s g73 g78, g80, g82, g84, g86, g88, one_f32]
  rfl

theorem pay3_at : k0_pay3 (F := Ideal) v73 v78 v80 v82 v84 v86 v88 (ix2 r (0 : Fin 1)) = wTree s 0 := by
  show v80 (ix2 r (0 : Fin 1)) * k0_pay2 (F := Ideal) v73 v78 v80 v82 v84 v86 v88 (ix2 r (0 : Fin 1)) = _
  rw [pay2_at v73 v78 v80 v82 v84 v86 v88 r s g73 g78 g80 g82 g84 g86 g88, g80]
  rfl

theorem pay4_at : k0_pay4 (F := Ideal) v73 v78 v80 v82 v84 v86 v88 (ix2 r (0 : Fin 1)) = wTree s 4 := by
  show v88 (ix2 r (0 : Fin 1)) * k0_pay2 (F := Ideal) v73 v78 v80 v82 v84 v86 v88 (ix2 r (0 : Fin 1)) = _
  rw [pay2_at v73 v78 v80 v82 v84 v86 v88 r s g73 g78 g80 g82 g84 g86 g88, g88]
  rfl

/-- The store into columns 0–511: all six node types. -/
theorem pay5_at (c : Fin 512) :
    k0_pay5 (F := Ideal) v9 v11 v13 v15 v17 v19 v73 v78 v80 v82 v84 v86 v88 (ix2 r c)
      = ((((wTree s 0 * v9 (ix2 r (Fin.castLE (by decide) c)) + wTree s 1 * v11 (ix2 r c)) + wTree s 2 * v13 (ix2 r c))
          + wTree s 3 * v15 (ix2 r c)) + wTree s 4 * v17 (ix2 r (Fin.castLE (by decide) c))) + wTree s 5 * v19 (ix2 r c) := by
  have hp2 := pay2_at v73 v78 v80 v82 v84 v86 v88 r s g73 g78 g80 g82 g84 g86 g88
  show ((((broadcastTo S512x512 (k0_pay3 (F := Ideal) v73 v78 v80 v82 v84 v86 v88) broadcasts_S512x1_S512x512 (ix2 r c)
              * extractStridedSlice S512x512 ![0, 0] v9 slices_S512x1024_o0_0_S512x512 (ix2 r c)
            + broadcastTo S512x512 (mulf v82 (k0_pay2 (F := Ideal) v73 v78 v80 v82 v84 v86 v88)) broadcasts_S512x1_S512x512 (ix2 r c) * v11 (ix2 r c))
          + broadcastTo S512x512 (mulf v84 (k0_pay2 (F := Ideal) v73 v78 v80 v82 v84 v86 v88)) broadcasts_S512x1_S512x512 (ix2 r c) * v13 (ix2 r c))
        + broadcastTo S512x512 (mulf v86 (k0_pay2 (F := Ideal) v73 v78 v80 v82 v84 v86 v88)) broadcasts_S512x1_S512x512 (ix2 r c) * v15 (ix2 r c))
      + broadcastTo S512x512 (k0_pay4 (F := Ideal) v73 v78 v80 v82 v84 v86 v88) broadcasts_S512x1_S512x512 (ix2 r c)
          * extractStridedSlice S512x512 ![0, 0] v17 slices_S512x1024_o0_0_S512x512 (ix2 r c))
    + broadcastTo S512x512 (mulf (k0_pay1 (F := Ideal) v73 v78) (k0_pay2 (F := Ideal) v73 v78 v80 v82 v84 v86 v88)) broadcasts_S512x1_S512x512 (ix2 r c)
        * v19 (ix2 r c) = _
  rw [Cert.LibColumnReads.broadcastTo_a1_ab_apply, Cert.LibColumnReads.broadcastTo_a1_ab_apply,
    Cert.LibColumnReads.broadcastTo_a1_ab_apply, Cert.LibColumnReads.broadcastTo_a1_ab_apply,
    Cert.LibColumnReads.broadcastTo_a1_ab_apply, Cert.LibColumnReads.broadcastTo_a1_ab_apply,
    slice2_axis1_apply 0 v9 _ r c (Fin.castLE (by decide) c) (Nat.zero_add _).symm,
    slice2_axis1_apply 0 v17 _ r c (Fin.castLE (by decide) c) (Nat.zero_add _).symm,
    pay3_at v73 v78 v80 v82 v84 v86 v88 r s g73 g78 g80 g82 g84 g86 g88,
    pay4_at v73 v78 v80 v82 v84 v86 v88 r s g73 g78 g80 g82 g84 g86 g88]
  show ((((_ + (v82 (ix2 r (0 : Fin 1)) * k0_pay2 (F := Ideal) v73 v78 v80 v82 v84 v86 v88 (ix2 r (0 : Fin 1))) * _)
        + (v84 (ix2 r (0 : Fin 1)) * k0_pay2 (F := Ideal) v73 v78 v80 v82 v84 v86 v88 (ix2 r (0 : Fin 1))) * _)
      + (v86 (ix2 r (0 : Fin 1)) * k0_pay2 (F := Ideal) v73 v78 v80 v82 v84 v86 v88 (ix2 r (0 : Fin 1))) * _) + _)
    + (k0_pay1 (F := Ideal) v73 v78 (ix2 r (0 : Fin 1)) * k0_pay2 (F := Ideal) v73 v78 v80 v82 v84 v86 v88 (ix2 r (0 : Fin 1))) * _ = _
  rw [hp2, pay1_at v73 v78 r s g73 g78, g82, g84, g86]
  rfl

/-- The store into columns 512–1023: the two wide node types. -/
theorem pay6_at (c : Fin 512) :
    k0_pay6 (F := Ideal) v9 v17 v73 v78 v80 v82 v84 v86 v88 (ix2 r c)
      = wTree s 0 * v9 (ix2 r ⟨512 + c.val, by omega⟩) + wTree s 4 * v17 (ix2 r ⟨512 + c.val, by omega⟩) := by
  show broadcastTo S512x512 (k0_pay3 (F := Ideal) v73 v78 v80 v82 v84 v86 v88) broadcasts_S512x1_S512x512 (ix2 r c)
        * extractStridedSlice S512x512 ![0, 512] v9 slices_S512x1024_o0_512_S512x512 (ix2 r c)
      + broadcastTo S512x512 (k0_pay4 (F := Ideal) v73 v78 v80 v82 v84 v86 v88) broadcasts_S512x1_S512x512 (ix2 r c)
        * extractStridedSlice S512x512 ![0, 512] v17 slices_S512x1024_o0_512_S512x512 (ix2 r c) = _
  rw [Cert.LibColumnReads.broadcastTo_a1_ab_apply, Cert.LibColumnReads.broadcastTo_a1_ab_apply,
    slice2_axis1_apply 512 v9 _ r c ⟨512 + c.val, by omega⟩ rfl,
    slice2_axis1_apply 512 v17 _ r c ⟨512 + c.val, by omega⟩ rfl,
    pay3_at v73 v78 v80 v82 v84 v86 v88 r s g73 g78 g80 g82 g84 g86 g88,
    pay4_at v73 v78 v80 v82 v84 v86 v88 r s g73 g78 g80 g82 g84 g86 g88]

end Mix

/-- The store into columns 1024–2047: zeros. -/
theorem pay7_at (j : S512x1024.Idx) : k0_pay7 (F := Ideal) j = (0 : EReal) := Ideal.ofBits_zero_f32

end Cert.KernelIdeal.Block

end
-- ==== Proof.KernelPieces.lean ====
/-
  The three values the kernel body stores, as functions of the nine blocks it loads, and what each is at an index:
  the restriction of `rows2` of the blocks to its column range (columns 0–511, 512–1023, 1024–2047).
-/
import proofs.«177756_j18872086298924_2_alg».proof.Proof.KernelBlock
import proofs.«177756_j18872086298924_2_alg».proof.Proof.KernelMix

set_option maxRecDepth 8192

noncomputable section

namespace Cert.KernelIdeal.Block

open Cert.KernelIdeal Cert.KernelIdeal.Gen Idealize.ShloMosaic Idealize.ShloMosaic.ValueIdx
open Cert.NodeAttn

/-! ## The stored values over the loaded blocks, at any float instance -/

section Named

variable {F : FTy → Type} [FloatOps F]

/-- The sixth score column. -/
def V73 (x0 : Vec F S512x1024 .f32) (x1 x2 x3 : Vec F S512x512 .f32) (x4 : Vec F S512x1024 .f32)
    (x5 : Vec F S512x512 .f32) (x6 : Vec F S512x2048 .bf16) (x7 x8 : Vec F S1x512 .f32) : FVec F S512x1 .f32 :=
  k0_pay25 (k0_pay8 x7) (k0_pay9 x8) (k0_pay12 x6) (k0_pay18 x5)
/-- The maximum of the six score columns. -/
def V78 (x0 : Vec F S512x1024 .f32) (x1 x2 x3 : Vec F S512x512 .f32) (x4 : Vec F S512x1024 .f32)
    (x5 : Vec F S512x512 .f32) (x6 : Vec F S512x2048 .bf16) (x7 x8 : Vec F S1x512 .f32) : FVec F S512x1 .f32 :=
  k0_pay26 (k0_pay8 x7) (k0_pay9 x8) (k0_pay11 x6) (k0_pay12 x6) (k0_pay15 x2) (k0_pay16 x3) (k0_pay17 x4) (k0_pay18 x5) (k0_pay19 x7 x8 x6 x0) (k0_pay20 x7 x8 x6 x1)
/-- The exponentials of the first five score columns below the maximum. -/
def V80 (x0 : Vec F S512x1024 .f32) (x1 x2 x3 : Vec F S512x512 .f32) (x4 : Vec F S512x1024 .f32)
    (x5 : Vec F S512x512 .f32) (x6 : Vec F S512x2048 .bf16) (x7 x8 : Vec F S1x512 .f32) : FVec F S512x1 .f32 :=
  k0_pay27 (k0_pay8 x7) (k0_pay9 x8) (k0_pay11 x6) (k0_pay12 x6) (k0_pay15 x2) (k0_pay16 x3) (k0_pay17 x4) (k0_pay18 x5) (k0_pay19 x7 x8 x6 x0) (k0_pay20 x7 x8 x6 x1)
def V82 (x0 : Vec F S512x1024 .f32) (x1 x2 x3 : Vec F S512x512 .f32) (x4 : Vec F S512x1024 .f32)
    (x5 : Vec F S512x512 .f32) (x6 : Vec F S512x2048 .bf16) (x7 x8 : Vec F S1x512 .f32) : FVec F S512x1 .f32 :=
  k0_pay28 (k0_pay8 x7) (k0_pay9 x8) (k0_pay11 x6) (k0_pay12 x6) (k0_pay15 x2) (k0_pay16 x3) (k0_pay17 x4) (k0_pay18 x5) (k0_pay19 x7 x8 x6 x0) (k0_pay20 x7 x8 x6 x1)
def V84 (x0 : Vec F S512x1024 .f32) (x1 x2 x3 : Vec F S512x512 .f32) (x4 : Vec F S512x1024 .f32)
    (x5 : Vec F S512x512 .f32) (x6 : Vec F S512x2048 .bf16) (x7 x8 : Vec F S1x512 .f32) : FVec F S512x1 .f32 :=
  k0_pay29 (k0_pay8 x7) (k0_pay9 x8) (k0_pay11 x6) (k0_pay12 x6) (k0_pay15 x2) (k0_pay16 x3) (k0_pay17 x4) (k0_pay18 x5) (k0_pay19 x7 x8 x6 x0) (k0_pay20 x7 x8 x6 x1)
def V86 (x0 : Vec F S512x1024 .f32) (x1 x2 x3 : Vec F S512x512 .f32) (x4 : Vec F S512x1024 .f32)
    (x5 : Vec F S512x512 .f32) (x6 : Vec F S512x2048 .bf16) (x7 x8 : Vec F S1x512 .f32) : FVec F S512x1 .f32 :=
  k0_pay30 (k0_pay8 x7) (k0_pay9 x8) (k0_pay11 x6) (k0_pay12 x6) (k0_pay15 x2) (k0_pay16 x3) (k0_pay17 x4) (k0_pay18 x5) (k0_pay19 x7 x8 x6 x0) (k0_pay20 x7 x8 x6 x1)
def V88 (x0 : Vec F S512x1024 .f32) (x1 x2 x3 : Vec F S512x512 .f32) (x4 : Vec F S512x1024 .f32)
    (x5 : Vec F S512x512 .f32) (x6 : Vec F S512x2048 .bf16) (x7 x8 : Vec F S1x512 .f32) : FVec F S512x1 .f32 :=
  k0_pay31 (k0_pay8 x7) (k0_pay9 x8) (k0_pay11 x6) (k0_pay12 x6) (k0_pay15 x2) (k0_pay16 x3) (k0_pay17 x4) (k0_pay18 x5) (k0_pay19 x7 x8 x6 x0) (k0_pay20 x7 x8 x6 x1)

/-- What is stored into columns 0–511. -/
def P5 (x0 : Vec F S512x1024 .f32) (x1 x2 x3 : Vec F S512x512 .f32) (x4 : Vec F S512x1024 .f32)
    (x5 : Vec F S512x512 .f32) (x6 : Vec F S512x2048 .bf16) (x7 x8 : Vec F S1x512 .f32) : FVec F S512x512 .f32 :=
  k0_pay5 (k0_pay13 x0) (k0_pay14 x1) (k0_pay15 x2) (k0_pay16 x3) (k0_pay17 x4) (k0_pay18 x5)
    (V73 x0 x1 x2 x3 x4 x5 x6 x7 x8) (V78 x0 x1 x2 x3 x4 x5 x6 x7 x8) (V80 x0 x1 x2 x3 x4 x5 x6 x7 x8) (V82 x0 x1 x2 x3 x4 x5 x6 x7 x8) (V84 x0 x1 x2 x3 x4 x5 x6 x7 x8) (V86 x0 x1 x2 x3 x4 x5 x6 x7 x8) (V88 x0 x1 x2 x3 x4 x5 x6 x7 x8)
/-- What is stored into columns 512–1023. -/
def P6 (x0 : Vec F S512x1024 .f32) (x1 x2 x3 : Vec F S512x512 .f32) (x4 : Vec F S512x1024 .f32)
    (x5 : Vec F S512x512 .f32) (x6 : Vec F S512x2048 .bf16) (x7 x8 : Vec F S1x512 .f32) : FVec F S512x512 .f32 :=
  k0_pay6 (k0_pay13 x0) (k0_pay17 x4) (V73 x0 x1 x2 x3 x4 x5 x6 x7 x8) (V78 x0 x1 x2 x3 x4 x5 x6 x7 x8) (V80 x0 x1 x2 x3 x4 x5 x6 x7 x8) (V82 x0 x1 x2 x3 x4 x5 x6 x7 x8) (V84 x0 x1 x2 x3 x4 x5 x6 x7 x8) (V86 x0 x1 x2 x3 x4 x5 x6 x7 x8) (V88 x0 x1 x2 x3 x4 x5 x6 x7 x8)

end Named

/-! ## At the ideal values, at an index -/

variable (x0 : Vec Ideal S512x1024 .f32) (x1 x2 x3 : Vec Ideal S512x512 .f32) (x4 : Vec Ideal S512x1024 .f32)
    (x5 : Vec Ideal S512x512 .f32) (x6 : Vec Ideal S512x2048 .bf16) (x7 x8 : Vec Ideal S1x512 .f32)

theorem V73_at (r : Fin 512) : V73 x0 x1 x2 x3 x4 x5 x6 x7 x8 (ix2 r (0 : Fin 1)) = sc x0 x1 x2 x3 x4 x5 x6 x7 x8 r 5 := score5 x0 x1 x2 x3 x4 x5 x6 x7 x8 r

theorem V78_at (r : Fin 512) : V78 x0 x1 x2 x3 x4 x5 x6 x7 x8 (ix2 r (0 : Fin 1)) = mTree (sc x0 x1 x2 x3 x4 x5 x6 x7 x8 r) :=
  pay26_at (k0_pay8 x7) (k0_pay9 x8) (k0_pay11 x6) (k0_pay12 x6) (k0_pay15 x2) (k0_pay16 x3) (k0_pay17 x4) (k0_pay18 x5) (k0_pay19 x7 x8 x6 x0) (k0_pay20 x7 x8 x6 x1) r (sc x0 x1 x2 x3 x4 x5 x6 x7 x8 r) (score0 x0 x1 x2 x3 x4 x5 x6 x7 x8 r) (score1 x0 x1 x2 x3 x4 x5 x6 x7 x8 r) (score2 x0 x1 x2 x3 x4 x5 x6 x7 x8 r) (score3 x0 x1 x2 x3 x4 x5 x6 x7 x8 r) (score4 x0 x1 x2 x3 x4 x5 x6 x7 x8 r) (score5 x0 x1 x2 x3 x4 x5 x6 x7 x8 r)
theorem V80_at (r : Fin 512) : V80 x0 x1 x2 x3 x4 x5 x6 x7 x8 (ix2 r (0 : Fin 1)) = eTree (sc x0 x1 x2 x3 x4 x5 x6 x7 x8 r) 0 :=
  pay27_at (k0_pay8 x7) (k0_pay9 x8) (k0_pay11 x6) (k0_pay12 x6) (k0_pay15 x2) (k0_pay16 x3) (k0_pay17 x4) (k0_pay18 x5) (k0_pay19 x7 x8 x6 x0) (k0_pay20 x7 x8 x6 x1) r (sc x0 x1 x2 x3 x4 x5 x6 x7 x8 r) (score0 x0 x1 x2 x3 x4 x5 x6 x7 x8 r) (score1 x0 x1 x2 x3 x4 x5 x6 x7 x8 r) (score2 x0 x1 x2 x3 x4 x5 x6 x7 x8 r) (score3 x0 x1 x2 x3 x4 x5 x6 x7 x8 r) (score4 x0 x1 x2 x3 x4 x5 x6 x7 x8 r) (score5 x0 x1 x2 x3 x4 x5 x6 x7 x8 r)
theorem V82_at (r : Fin 512) : V82 x0 x1 x2 x3 x4 x5 x6 x7 x8 (ix2 r (0 : Fin 1)) = eTree (sc x0 x1 x2 x3 x4 x5 x6 x7 x8 r) 1 :=
  pay28_at (k0_pay8 x7) (k0_pay9 x8) (k0_pay11 x6) (k0_pay12 x6) (k0_pay15 x2) (k0_pay16 x3) (k0_pay17 x4) (k0_pay18 x5) (k0_pay19 x7 x8 x6 x0) (k0_pay20 x7 x8 x6 x1) r (sc x0 x1 x2 x3 x4 x5 x6 x7 x8 r) (score0 x0 x1 x2 x3 x4 x5 x6 x7 x8 r) (score1 x0 x1 x2 x3 x4 x5 x6 x7 x8 r) (score2 x0 x1 x2 x3 x4 x5 x6 x7 x8 r) (score3 x0 x1 x2 x3 x4 x5 x6 x7 x8 r) (score4 x0 x1 x2 x3 x4 x5 x6 x7 x8 r) (score5 x0 x1 x2 x3 x4 x5 x6 x7 x8 r)
theorem V84_at (r : Fin 512) : V84 x0 x1 x2 x3 x4 x5 x6 x7 x8 (ix2 r (0 : Fin 1)) = eTree (sc x0 x1 x2 x3 x4 x5 x6 x7 x8 r) 2 :=
  pay29_at (k0_pay8 x7) (k0_pay9 x8) (k0_pay11 x6) (k0_pay12 x6) (k0_pay15 x2) (k0_pay16 x3) (k0_pay17 x4) (k0_pay18 x5) (k0_pay19 x7 x8 x6 x0) (k0_pay20 x7 x8 x6 x1) r (sc x0 x1 x2 x3 x4 x5 x6 x7 x8 r) (score0 x0 x1 x2 x3 x4 x5 x6 x7 x8 r) (score1 x0 x1 x2 x3 x4 x5 x6 x7 x8 r) (score2 x0 x1 x2 x3 x4 x5 x6 x7 x8 r) (score3 x0 x1 x2 x3 x4 x5 x6 x7 x8 r) (score4 x0 x1 x2 x3 x4 x5 x6 x7 x8 r) (score5 x0 x1 x2 x3 x4 x5 x6 x7 x8 r)
theorem V86_at (r : Fin 512) : V86 x0 x1 x2 x3 x4 x5 x6 x7 x8 (ix2 r (0 : Fin 1)) = eTree (sc x0 x1 x2 x3 x4 x5 x6 x7 x8 r) 3 :=
  pay30_at (k0_pay8 x7) (k0_pay9 x8) (k0_pay11 x6) (k0_pay12 x6) (k0_pay15 x2) (k0_pay16 x3) (k0_pay17 x4) (k0_pay18 x5) (k0_pay19 x7 x8 x6 x0) (k0_pay20 x7 x8 x6 x1) r (sc x0 x1 x2 x3 x4 x5 x6 x7 x8 r) (score0 x0 x1 x2 x3 x4 x5 x6 x7 x8 r) (score1 x0 x1 x2 x3 x4 x5 x6 x7 x8 r) (score2 x0 x1 x2 x3 x4 x5 x6 x7 x8 r) (score3 x0 x1 x2 x3 x4 x5 x6 x7 x8 r) (score4 x0 x1 x2 x3 x4 x5 x6 x7 x8 r) (score5 x0 x1 x2 x3 x4 x5 x6 x7 x8 r)
theorem V88_at (r : Fin 512) : V88 x0 x1 x2 x3 x4 x5 x6 x7 x8 (ix2 r (0 : Fin 1)) = eTree (sc x0 x1 x2 x3 x4 x5 x6 x7 x8 r) 4 :=
  pay31_at (k0_pay8 x7) (k0_pay9 x8) (k0_pay11 x6) (k0_pay12 x6) (k0_pay15 x2) (k0_pay16 x3) (k0_pay17 x4) (k0_pay18 x5) (k0_pay19 x7 x8 x6 x0) (k0_pay20 x7 x8 x6 x1) r (sc x0 x1 x2 x3 x4 x5 x6 x7 x8 r) (score0 x0 x1 x2 x3 x4 x5 x6 x7 x8 r) (score1 x0 x1 x2 x3 x4 x5 x6 x7 x8 r) (score2 x0 x1 x2 x3 x4 x5 x6 x7 x8 r) (score3 x0 x1 x2 x3 x4 x5 x6 x7 x8 r) (score4 x0 x1 x2 x3 x4 x5 x6 x7 x8 r) (score5 x0 x1 x2 x3 x4 x5 x6 x7 x8 r)

/-- Columns 0–511 of the block's rows. -/
theorem P5_at (r : Fin 512) (c : Fin 512) :
    P5 x0 x1 x2 x3 x4 x5 x6 x7 x8 (ix2 r c) = rows2 (R := 512) x0 x1 x2 x3 x4 x5 x6 x7 x8 (ix2 r (Fin.castLE (by decide) c)) := by
  refine (pay5_at (k0_pay13 x0) (k0_pay14 x1) (k0_pay15 x2) (k0_pay16 x3) (k0_pay17 x4) (k0_pay18 x5)
    (V73 x0 x1 x2 x3 x4 x5 x6 x7 x8) (V78 x0 x1 x2 x3 x4 x5 x6 x7 x8) (V80 x0 x1 x2 x3 x4 x5 x6 x7 x8) (V82 x0 x1 x2 x3 x4 x5 x6 x7 x8) (V84 x0 x1 x2 x3 x4 x5 x6 x7 x8) (V86 x0 x1 x2 x3 x4 x5 x6 x7 x8) (V88 x0 x1 x2 x3 x4 x5 x6 x7 x8) r (sc x0 x1 x2 x3 x4 x5 x6 x7 x8 r)
    (V73_at x0 x1 x2 x3 x4 x5 x6 x7 x8 r) (V78_at x0 x1 x2 x3 x4 x5 x6 x7 x8 r) (V80_at x0 x1 x2 x3 x4 x5 x6 x7 x8 r) (V82_at x0 x1 x2 x3 x4 x5 x6 x7 x8 r) (V84_at x0 x1 x2 x3 x4 x5 x6 x7 x8 r) (V86_at x0 x1 x2 x3 x4 x5 x6 x7 x8 r) (V88_at x0 x1 x2 x3 x4 x5 x6 x7 x8 r) c).trans ?_
  rw [pay13_eq, pay14_eq, pay15_eq, pay16_eq, pay17_eq, pay18_eq, rows2_apply]
  unfold rowOut
  rw [dif_pos (show (Fin.castLE (by decide : 512 ≤ 2048) c).val < 512 from c.isLt)]
  rfl

/-- Columns 512–1023 of the block's rows. -/
theorem P6_at (r : Fin 512) (c : Fin 512) :
    P6 x0 x1 x2 x3 x4 x5 x6 x7 x8 (ix2 r c) = rows2 (R := 512) x0 x1 x2 x3 x4 x5 x6 x7 x8 (ix2 r ⟨512 + c.val, by omega⟩) := by
  refine (pay6_at (k0_pay13 x0) (k0_pay17 x4)
    (V73 x0 x1 x2 x3 x4 x5 x6 x7 x8) (V78 x0 x1 x2 x3 x4 x5 x6 x7 x8) (V80 x0 x1 x2 x3 x4 x5 x6 x7 x8) (V82 x0 x1 x2 x3 x4 x5 x6 x7 x8) (V84 x0 x1 x2 x3 x4 x5 x6 x7 x8) (V86 x0 x1 x2 x3 x4 x5 x6 x7 x8) (V88 x0 x1 x2 x3 x4 x5 x6 x7 x8) r (sc x0 x1 x2 x3 x4 x5 x6 x7 x8 r)
    (V73_at x0 x1 x2 x3 x4 x5 x6 x7 x8 r) (V78_at x0 x1 x2 x3 x4 x5 x6 x7 x8 r) (V80_at x0 x1 x2 x3 x4 x5 x6 x7 x8 r) (V82_at x0 x1 x2 x3 x4 x5 x6 x7 x8 r) (V84_at x0 x1 x2 x3 x4 x5 x6 x7 x8 r) (V86_at x0 x1 x2 x3 x4 x5 x6 x7 x8 r) (V88_at x0 x1 x2 x3 x4 x5 x6 x7 x8 r) c).trans ?_
  rw [pay13_eq, pay17_eq, rows2_apply]
  unfold rowOut
  rw [dif_neg (show ¬ (512 + c.val < 512) by omega), dif_pos (show 512 + c.val < 1024 by omega)]
  rfl

/-- Columns 1024–2047 of the block's rows: zero. -/
theorem P7_at (r : Fin 512) (c : Fin 1024) :
    k0_pay7 (F := Ideal) (ix2 r c) = rows2 (R := 512) x0 x1 x2 x3 x4 x5 x6 x7 x8 (ix2 r ⟨1024 + c.val, by omega⟩) := by
  rw [pay7_at, rows2_apply]
  unfold rowOut
  rw [dif_neg (show ¬ (1024 + c.val < 512) by omega), dif_neg (show ¬ (1024 + c.val < 1024) by omega)]

end Cert.KernelIdeal.Block

end
-- ==== Proof.KernelOut.lean ====
/-
  What the kernel body leaves in the output's staging buffer at one grid point: the three stores' rectangles tile the
  512 × 2048 block, and each stored value is `rows2` of the loaded blocks over its rectangle, so the buffer holds
  `rows2` of the blocks.
-/
import proofs.«177756_j18872086298924_2_alg».proof.Proof.Gen.KernelIdeal.Frame
import proofs.«177756_j18872086298924_2_alg».proof.Proof.KernelPieces
import Idealize.ShloMosaic.Lib.Pipeline.Value

set_option maxRecDepth 16384

noncomputable section

namespace Cert.KernelIdeal.KValue

open Cert.KernelIdeal Cert.KernelIdeal.Gen Cert.KernelIdeal.Block Cert.NodeAttn
open Idealize.ShloMosaic Idealize.ShloMosaic.TcCoe Idealize.ShloMosaic.Tactic Idealize.ShloMosaic.ValueIdx
open Idealize.SL Idealize.SL.Sem

theorem hz : (![0, 0] : Fin 2 → Nat) = fun _ => 0 := funext fun a => by fin_cases a <;> rfl

/-- The list of stores the body's run finds, last first, over the loaded blocks. -/
theorem pieces_eq {F : FTy → Type} [FloatOps F] (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x2048 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x2048 .f32) (harg10 : arg10.IsWhole)
    (x0 : Vec F S512x1024 .f32) (x1 x2 x3 : Vec F S512x512 .f32) (x4 : Vec F S512x1024 .f32)
    (x5 : Vec F S512x512 .f32) (x6 : Vec F S512x2048 .bf16) (x7 x8 : Vec F S1x512 .f32) :
    (kernelRun0_A (F := F) c i arg1 harg1 arg2 harg2 arg3 harg3 arg4 harg4 arg5 harg5 arg6 harg6 arg7 harg7 arg8 harg8 arg9 harg9 arg10 harg10 x0 x1 x2 x3 x4 x5 x6 x7 x8).1
      = [⟨Rect.unit ![0, 1024] ![512, 1024] inb_S512x2048_S512x1024_0_1024, k0_pay7⟩,
         ⟨Rect.unit ![0, 512] ![512, 512] inb_S512x2048_S512x512_0_512, P6 x0 x1 x2 x3 x4 x5 x6 x7 x8⟩,
         ⟨Rect.unit ![0, 0] ![512, 512] inb_S512x2048_S512x512_0_0, P5 x0 x1 x2 x3 x4 x5 x6 x7 x8⟩] := by
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread,
    View.ld_unit_zero (S := S512x1024) hz, View.ld_unit_zero (S := S512x512) hz, View.ld_unit_zero (S := S512x2048) hz,
    View.ld_unit_zero (S := S1x512) hz]
  rfl

/-- Where each store's rectangle puts its entries in the block. -/
theorem emb7 (inb : ∀ a, (![0, 1024] : Fin 2 → Nat) a + (![512, 1024] : Fin 2 → Nat) a ≤ S512x2048.size a) (r : Fin 512) (cc : Fin 1024) :
    (Rect.unit (s := S512x2048) ![0, 1024] ![512, 1024] inb).emb (ix2 r cc) = ix2 r ⟨1024 + cc.val, by omega⟩ :=
  funext fun a => Fin.ext (by
    match a with
    | ⟨0, _⟩ => show 0 + 1 * r.val = r.val; omega
    | ⟨1, _⟩ => show 1024 + 1 * cc.val = 1024 + cc.val; omega)
theorem emb6 (inb : ∀ a, (![0, 512] : Fin 2 → Nat) a + (![512, 512] : Fin 2 → Nat) a ≤ S512x2048.size a) (r : Fin 512) (cc : Fin 512) :
    (Rect.unit (s := S512x2048) ![0, 512] ![512, 512] inb).emb (ix2 r cc) = ix2 r ⟨512 + cc.val, by omega⟩ :=
  funext fun a => Fin.ext (by
    match a with
    | ⟨0, _⟩ => show 0 + 1 * r.val = r.val; omega
    | ⟨1, _⟩ => show 512 + 1 * cc.val = 512 + cc.val; omega)
theorem emb5 (inb : ∀ a, (![0, 0] : Fin 2 → Nat) a + (![512, 512] : Fin 2 → Nat) a ≤ S512x2048.size a) (r : Fin 512) (cc : Fin 512) :
    (Rect.unit (s := S512x2048) ![0, 0] ![512, 512] inb).emb (ix2 r cc) = ix2 r (Fin.castLE (by decide) cc) :=
  funext fun a => Fin.ext (by
    match a with
    | ⟨0, _⟩ => show 0 + 1 * r.val = r.val; omega
    | ⟨1, _⟩ => show 0 + 1 * cc.val = cc.val; omega)

/-- At the ideal values the staging buffer ends holding `rows2` of the loaded blocks. -/
theorem out_eq (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x2048 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x2048 .f32) (harg10 : arg10.IsWhole)
    (x0 : Vec Ideal S512x1024 .f32) (x1 x2 x3 : Vec Ideal S512x512 .f32) (x4 : Vec Ideal S512x1024 .f32)
    (x5 : Vec Ideal S512x512 .f32) (x6 : Vec Ideal S512x2048 .bf16) (x7 x8 : Vec Ideal S1x512 .f32) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 x8 = rows2 (R := 512) x0 x1 x2 x3 x4 x5 x6 x7 x8 := by
  funext y
  have hc := cover0_A_9 (F := Ideal) c i arg1 harg1 arg2 harg2 arg3 harg3 arg4 harg4 arg5 harg5 arg6 harg6 arg7 harg7 arg8 harg8 arg9 harg9 arg10 harg10 x0 x1 x2 x3 x4 x5 x6 x7 x8 y
  unfold out0_A_9
  rw [pieces_eq] at hc ⊢
  refine View.read_writes_apply_of_pieces _ _ (rows2 (R := 512) x0 x1 x2 x3 x4 x5 x6 x7 x8) _ ?_ y hc
  intro p hp x
  simp only [List.mem_cons, List.not_mem_nil, or_false] at hp
  rcases hp with rfl | rfl | rfl
  · obtain ⟨r, cc, rfl⟩ : ∃ (r : Fin 512) (cc : Fin 1024), x = ix2 r cc := ⟨x 0, x 1, eq_ix2 x⟩
    exact (P7_at x0 x1 x2 x3 x4 x5 x6 x7 x8 r cc).trans (congrArg (rows2 (R := 512) x0 x1 x2 x3 x4 x5 x6 x7 x8) (emb7 inb_S512x2048_S512x1024_0_1024 r cc).symm)
  · obtain ⟨r, cc, rfl⟩ : ∃ (r : Fin 512) (cc : Fin 512), x = ix2 r cc := ⟨x 0, x 1, eq_ix2 x⟩
    exact (P6_at x0 x1 x2 x3 x4 x5 x6 x7 x8 r cc).trans (congrArg (rows2 (R := 512) x0 x1 x2 x3 x4 x5 x6 x7 x8) (emb6 inb_S512x2048_S512x512_0_512 r cc).symm)
  · obtain ⟨r, cc, rfl⟩ : ∃ (r : Fin 512) (cc : Fin 512), x = ix2 r cc := ⟨x 0, x 1, eq_ix2 x⟩
    exact (P5_at x0 x1 x2 x3 x4 x5 x6 x7 x8 r cc).trans (congrArg (rows2 (R := 512) x0 x1 x2 x3 x4 x5 x6 x7 x8) (emb5 inb_S512x2048_S512x512_0_0 r cc).symm)

end Cert.KernelIdeal.KValue

end
-- ==== Proof.KernelValue.lean ====
/-
  The idealized kernel program's result as a function of its arguments.

  Every grid point `t` writes back block `t` — rows `512 t … 512 t + 511` — of one matrix: `rows2` of the six
  feature matrices, the weight matrix and the bias and scoring rows as the region finds them; the sixteen blocks
  cover the 8192 rows, so the output array ends holding that matrix. The matrices the region finds are the program's
  arguments with their unit axis dropped (and `W` converted, which is the identity on the extended reals), and the
  program's result is the output matrix with the unit axis put back: `G` of the arguments.
-/
import proofs.«177756_j18872086298924_2_alg».proof.Proof.KernelOut
import Idealize.ShloMosaic.Lib.StableHlo.Run

set_option maxRecDepth 16384

noncomputable section

namespace Cert.KernelIdeal.KValue

open Cert.KernelIdeal Cert.KernelIdeal.Gen Cert.KernelIdeal.Block Cert.NodeAttn
open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat)

/-! ## A block of rows of `rows2` -/

/-- If blocks `x` hold rows `512 T … 512 T + 511` of matrices `A` (and the weight, bias and scoring blocks are the
    whole matrices), `rows2` of the blocks is those rows of `rows2` of the matrices. -/
theorem rows2_block (A0 : (⟨2, ![8192, 1024]⟩ : Shape).Idx → EReal) (A1 A2 A3 : (⟨2, ![8192, 512]⟩ : Shape).Idx → EReal)
    (A4 : (⟨2, ![8192, 1024]⟩ : Shape).Idx → EReal) (A5 : (⟨2, ![8192, 512]⟩ : Shape).Idx → EReal)
    (x0 : (⟨2, ![512, 1024]⟩ : Shape).Idx → EReal) (x1 x2 x3 : (⟨2, ![512, 512]⟩ : Shape).Idx → EReal)
    (x4 : (⟨2, ![512, 1024]⟩ : Shape).Idx → EReal) (x5 : (⟨2, ![512, 512]⟩ : Shape).Idx → EReal)
    (w w' : (⟨2, ![512, 2048]⟩ : Shape).Idx → EReal) (b b' h h' : (⟨2, ![1, 512]⟩ : Shape).Idx → EReal)
    (T : ℕ) (hT : T < 16)
    (e0 : ∀ (y : Fin 512) (l : Fin 1024), x0 (ix2 y l) = A0 (ix2 ⟨T * 512 + y.val, by omega⟩ l))
    (e1 : ∀ (y : Fin 512) (l : Fin 512), x1 (ix2 y l) = A1 (ix2 ⟨T * 512 + y.val, by omega⟩ l))
    (e2 : ∀ (y : Fin 512) (l : Fin 512), x2 (ix2 y l) = A2 (ix2 ⟨T * 512 + y.val, by omega⟩ l))
    (e3 : ∀ (y : Fin 512) (l : Fin 512), x3 (ix2 y l) = A3 (ix2 ⟨T * 512 + y.val, by omega⟩ l))
    (e4 : ∀ (y : Fin 512) (l : Fin 1024), x4 (ix2 y l) = A4 (ix2 ⟨T * 512 + y.val, by omega⟩ l))
    (e5 : ∀ (y : Fin 512) (l : Fin 512), x5 (ix2 y l) = A5 (ix2 ⟨T * 512 + y.val, by omega⟩ l))
    (e6 : ∀ (o : Fin 512) (l : Fin 2048), w' (ix2 o l) = w (ix2 o l))
    (e7 : ∀ o : Fin 512, b' (ix2 (0 : Fin 1) o) = b (ix2 (0 : Fin 1) o))
    (e8 : ∀ o : Fin 512, h' (ix2 (0 : Fin 1) o) = h (ix2 (0 : Fin 1) o))
    (y : Fin 512) (cc : Fin 2048) :
    rows2 (R := 512) x0 x1 x2 x3 x4 x5 w' b' h' (ix2 y cc)
      = rows2 (R := 8192) A0 A1 A2 A3 A4 A5 w b h (ix2 ⟨T * 512 + y.val, by omega⟩ cc) := by
  rw [rows2_apply, rows2_apply]
  simp only [e0, e1, e2, e3, e4, e5, e6, e7, e8]

variable (m : (ℓ : Loc nD τ sig) → Buf (Elt Ideal) ℓ) (ρ : Dev nD → PrngReg)

/-- The output matrix as the kernel computes it from the matrices the region finds. -/
def Garr (c : Dev nD) : S8192x2048.Idx → EReal :=
  rows2 (R := 8192) (V m c main_v0) (V m c main_v1) (V m c main_v2) (V m c main_v3) (V m c main_v4) (V m c main_v5)
    (V m c main_v8) (V m c main_v6) (V m c main_v7)

/-! ## The windows' index maps, decided over the sixteen points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 16 := Nat.lt_of_lt_of_eq t.isLt (show cfg0.N = 16 from N_0)

/-! ## Each input window's block at a point, read off its matrix -/

theorem blk0 (c : Dev nD) (t : Fin cfg0.N) (y : Fin 512) (l : Fin 1024) :
    iblk m c 0 t (ix2 y l) = V m c main_v0 (ix2 ⟨t.val * 512 + y.val, by have := t_lt t; omega⟩ l) := by
  obtain ⟨e00, e01, e10, e11, e20, e21, e30, e31, e40, e41, e50, e51, e60, e61, e70, e71, e80, e81, e90, e91⟩ := idx_facts t
  show V m c main_v0 (((cfg0.win 0).blk t).view.emb (ix2 y l)) = _
  refine congrArg (V m c main_v0) (funext fun a => Fin.ext ?_)
  match a with
  | ⟨0, _⟩ => show win0_0.index t (0 : Fin 2) * 512 + 1 * y.val = t.val * 512 + y.val; omega
  | ⟨1, _⟩ => show win0_0.index t (1 : Fin 2) * 1024 + 1 * l.val = l.val; omega

theorem blk1 (c : Dev nD) (t : Fin cfg0.N) (y : Fin 512) (l : Fin 512) :
    iblk m c 1 t (ix2 y l) = V m c main_v1 (ix2 ⟨t.val * 512 + y.val, by have := t_lt t; omega⟩ l) := by
  obtain ⟨e00, e01, e10, e11, e20, e21, e30, e31, e40, e41, e50, e51, e60, e61, e70, e71, e80, e81, e90, e91⟩ := idx_facts t
  show V m c main_v1 (((cfg0.win 1).blk t).view.emb (ix2 y l)) = _
  refine congrArg (V m c main_v1) (funext fun a => Fin.ext ?_)
  match a with
  | ⟨0, _⟩ => show win0_1.index t (0 : Fin 2) * 512 + 1 * y.val = t.val * 512 + y.val; omega
  | ⟨1, _⟩ => show win0_1.index t (1 : Fin 2) * 512 + 1 * l.val = l.val; omega

theorem blk2 (c : Dev nD) (t : Fin cfg0.N) (y : Fin 512) (l : Fin 512) :
    iblk m c 2 t (ix2 y l) = V m c main_v2 (ix2 ⟨t.val * 512 + y.val, by have := t_lt t; omega⟩ l) := by
  obtain ⟨e00, e01, e10, e11, e20, e21, e30, e31, e40, e41, e50, e51, e60, e61, e70, e71, e80, e81, e90, e91⟩ := idx_facts t
  show V m c main_v2 (((cfg0.win 2).blk t).view.emb (ix2 y l)) = _
  refine congrArg (V m c main_v2) (funext fun a => Fin.ext ?_)
  match a with
  | ⟨0, _⟩ => show win0_2.index t (0 : Fin 2) * 512 + 1 * y.val = t.val * 512 + y.val; omega
  | ⟨1, _⟩ => show win0_2.index t (1 : Fin 2) * 512 + 1 * l.val = l.val; omega

theorem blk3 (c : Dev nD) (t : Fin cfg0.N) (y : Fin 512) (l : Fin 512) :
    iblk m c 3 t (ix2 y l) = V m c main_v3 (ix2 ⟨t.val * 512 + y.val, by have := t_lt t; omega⟩ l) := by
  obtain ⟨e00, e01, e10, e11, e20, e21, e30, e31, e40, e41, e50, e51, e60, e61, e70, e71, e80, e81, e90, e91⟩ := idx_facts t
  show V m c main_v3 (((cfg0.win 3).blk t).view.emb (ix2 y l)) = _
  refine congrArg (V m c main_v3) (funext fun a => Fin.ext ?_)
  match a with
  | ⟨0, _⟩ => show win0_3.index t (0 : Fin 2) * 512 + 1 * y.val = t.val * 512 + y.val; omega
  | ⟨1, _⟩ => show win0_3.index t (1 : Fin 2) * 512 + 1 * l.val = l.val; omega

theorem blk4 (c : Dev nD) (t : Fin cfg0.N) (y : Fin 512) (l : Fin 1024) :
    iblk m c 4 t (ix2 y l) = V m c main_v4 (ix2 ⟨t.val * 512 + y.val, by have := t_lt t; omega⟩ l) := by
  obtain ⟨e00, e01, e10, e11, e20, e21, e30, e31, e40, e41, e50, e51, e60, e61, e70, e71, e80, e81, e90, e91⟩ := idx_facts t
  show V m c main_v4 (((cfg0.win 4).blk t).view.emb (ix2 y l)) = _
  refine congrArg (V m c main_v4) (funext fun a => Fin.ext ?_)
  match a with
  | ⟨0, _⟩ => show win0_4.index t (0 : Fin 2) * 512 + 1 * y.val = t.val * 512 + y.val; omega
  | ⟨1, _⟩ => show win0_4.index t (1 : Fin 2) * 1024 + 1 * l.val = l.val; omega

theorem blk5 (c : Dev nD) (t : Fin cfg0.N) (y : Fin 512) (l : Fin 512) :
    iblk m c 5 t (ix2 y l) = V m c main_v5 (ix2 ⟨t.val * 512 + y.val, by have := t_lt t; omega⟩ l) := by
  obtain ⟨e00, e01, e10, e11, e20, e21, e30, e31, e40, e41, e50, e51, e60, e61, e70, e71, e80, e81, e90, e91⟩ := idx_facts t
  show V m c main_v5 (((cfg0.win 5).blk t).view.emb (ix2 y l)) = _
  refine congrArg (V m c main_v5) (funext fun a => Fin.ext ?_)
  match a with
  | ⟨0, _⟩ => show win0_5.index t (0 : Fin 2) * 512 + 1 * y.val = t.val * 512 + y.val; omega
  | ⟨1, _⟩ => show win0_5.index t (1 : Fin 2) * 512 + 1 * l.val = l.val; omega

theorem blk6 (c : Dev nD) (t : Fin cfg0.N) (o : Fin 512) (l : Fin 2048) :
    iblk m c 6 t (ix2 o l) = V m c main_v8 (ix2 o l) := by
  obtain ⟨e00, e01, e10, e11, e20, e21, e30, e31, e40, e41, e50, e51, e60, e61, e70, e71, e80, e81, e90, e91⟩ := idx_facts t
  show V m c main_v8 (((cfg0.win 6).blk t).view.emb (ix2 o l)) = _
  refine congrArg (V m c main_v8) (funext fun a => Fin.ext ?_)
  match a with
  | ⟨0, _⟩ => show win0_6.index t (0 : Fin 2) * 512 + 1 * o.val = o.val; omega
  | ⟨1, _⟩ => show win0_6.index t (1 : Fin 2) * 2048 + 1 * l.val = l.val; omega

theorem blk7 (c : Dev nD) (t : Fin cfg0.N) (o : Fin 1) (l : Fin 512) :
    iblk m c 7 t (ix2 o l) = V m c main_v6 (ix2 o l) := by
  obtain ⟨e00, e01, e10, e11, e20, e21, e30, e31, e40, e41, e50, e51, e60, e61, e70, e71, e80, e81, e90, e91⟩ := idx_facts t
  show V m c main_v6 (((cfg0.win 7).blk t).view.emb (ix2 o l)) = _
  refine congrArg (V m c main_v6) (funext fun a => Fin.ext ?_)
  match a with
  | ⟨0, _⟩ => show win0_7.index t (0 : Fin 2) * 1 + 1 * o.val = o.val; omega
  | ⟨1, _⟩ => show win0_7.index t (1 : Fin 2) * 512 + 1 * l.val = l.val; omega

theorem blk8 (c : Dev nD) (t : Fin cfg0.N) (o : Fin 1) (l : Fin 512) :
    iblk m c 8 t (ix2 o l) = V m c main_v7 (ix2 o l) := by
  obtain ⟨e00, e01, e10, e11, e20, e21, e30, e31, e40, e41, e50, e51, e60, e61, e70, e71, e80, e81, e90, e91⟩ := idx_facts t
  show V m c main_v7 (((cfg0.win 8).blk t).view.emb (ix2 o l)) = _
  refine congrArg (V m c main_v7) (funext fun a => Fin.ext ?_)
  match a with
  | ⟨0, _⟩ => show win0_8.index t (0 : Fin 2) * 1 + 1 * o.val = o.val; omega
  | ⟨1, _⟩ => show win0_8.index t (1 : Fin 2) * 512 + 1 * l.val = l.val; omega

/-! ## What a point writes back, and the array after the run -/

/-- Point `t` writes back block `t` of `Garr`. -/
theorem flushed_eq (c : Dev nD) (t : Fin cfg0.N) :
    (dats m 0 c).flushed 9 t = ((cfg0.win 9).blk t).view.read (Elt Ideal) (Garr m c) := by
  show (cfg0.win 9).cut (grid0.coords t) ((dats m 0 c).after 9 t) = _
  rw [after0_9]
  unfold outsAt0
  rw [out_eq]
  funext j
  obtain ⟨e00, e01, e10, e11, e20, e21, e30, e31, e40, e41, e50, e51, e60, e61, e70, e71, e80, e81, e90, e91⟩ := idx_facts t
  have h16 := t_lt t
  have hj0 : (j 0).val < 512 := (j 0).isLt
  have hj1 : (j 1).val < 2048 := (j 1).isLt
  have key := rows2_block (V m c main_v0) (V m c main_v1) (V m c main_v2) (V m c main_v3) (V m c main_v4) (V m c main_v5)
    (iblk m c 0 t) (iblk m c 1 t) (iblk m c 2 t) (iblk m c 3 t) (iblk m c 4 t) (iblk m c 5 t)
    (V m c main_v8) (iblk m c 6 t) (V m c main_v6) (iblk m c 7 t) (V m c main_v7) (iblk m c 8 t) t.val h16
    (blk0 m c t) (blk1 m c t) (blk2 m c t) (blk3 m c t) (blk4 m c t) (blk5 m c t) (blk6 m c t)
    (fun o => blk7 m c t (0 : Fin 1) o) (fun o => blk8 m c t (0 : Fin 1) o) ⟨(j 0).val, hj0⟩ ⟨(j 1).val, hj1⟩
  have hemb : ((cfg0.win 9).blk t).view.emb j = ix2 (⟨t.val * 512 + (j 0).val, by omega⟩ : Fin 8192) (⟨(j 1).val, hj1⟩ : Fin 2048) :=
    funext fun a => Fin.ext (by
      match a with
      | ⟨0, _⟩ => show win0_9.index t (0 : Fin 2) * 512 + 1 * (j 0).val = t.val * 512 + (j 0).val; omega
      | ⟨1, _⟩ => show win0_9.index t (1 : Fin 2) * 2048 + 1 * (j 1).val = (j 1).val; omega)
  have hj : j = ix2 (⟨(j 0).val, hj0⟩ : Fin 512) (⟨(j 1).val, hj1⟩ : Fin 2048) :=
    funext fun a => by match a with | ⟨0, _⟩ => rfl | ⟨1, _⟩ => rfl
  show rows2 (R := 512) (iblk m c 0 t) (iblk m c 1 t) (iblk m c 2 t) (iblk m c 3 t) (iblk m c 4 t) (iblk m c 5 t)
      (iblk m c 6 t) (iblk m c 7 t) (iblk m c 8 t) j = Garr m c (((cfg0.win 9).blk t).view.emb j)
  rw [hemb]
  exact (congrArg (rows2 (R := 512) (iblk m c 0 t) (iblk m c 1 t) (iblk m c 2 t) (iblk m c 3 t) (iblk m c 4 t) (iblk m c 5 t)
      (iblk m c 6 t) (iblk m c 7 t) (iblk m c 8 t)) hj).trans key

/-- An index of the output matrix is in point `t`'s block iff each coordinate is in the block's range. -/
theorem mem_blk9 (t : Fin cfg0.N) (i : S8192x2048.Idx) :
    i ∈ ((cfg0.win 9).blk t).view.set ↔ ∀ a : Fin 2, win0_9.index t a * S512x2048.size a ≤ (i a).val
      ∧ (i a).val < win0_9.index t a * S512x2048.size a + S512x2048.size a := by
  show i ∈ ((View.whole main_v9).slice (win0_9.rect t)).set ↔ _
  rw [View.set_slice_whole, Rect.mem_set_unit]
  exact Iff.rfl

/-- The sixteen blocks cover the rows, so the output matrix ends holding `Garr`. -/
theorem final9 (c : Dev nD) : (dats m 0 c).arrAt 9 cfg0.N = Garr m c :=
  (dats m 0 c).arrAt_eq_of_cover 9 (Garr m c) (fun t _ => flushed_eq m c t) fun i => by
    have hi0 : (i 0).val < 8192 := (i 0).isLt
    have hi1 : (i 1).val < 2048 := (i 1).isLt
    have ht : (i 0).val / 512 < cfg0.N := by rw [show cfg0.N = 16 from N_0]; omega
    obtain ⟨e00, e01, e10, e11, e20, e21, e30, e31, e40, e41, e50, e51, e60, e61, e70, e71, e80, e81, e90, e91⟩ := idx_facts ⟨(i 0).val / 512, ht⟩
    refine ⟨⟨(i 0).val / 512, ht⟩, flush0_9 _, ?_⟩
    rw [mem_blk9]
    intro a
    match a with
    | ⟨0, _⟩ =>
      show win0_9.index ⟨(i 0).val / 512, ht⟩ (0 : Fin 2) * 512 ≤ (i 0).val
        ∧ (i 0).val < win0_9.index ⟨(i 0).val / 512, ht⟩ (0 : Fin 2) * 512 + 512
      rw [e90]
      show (i 0).val / 512 * 512 ≤ (i 0).val ∧ (i 0).val < (i 0).val / 512 * 512 + 512
      omega
    | ⟨1, _⟩ =>
      show win0_9.index ⟨(i 0).val / 512, ht⟩ (1 : Fin 2) * 2048 ≤ (i 1).val
        ∧ (i 1).val < win0_9.index ⟨(i 0).val / 512, ht⟩ (1 : Fin 2) * 2048 + 2048
      rw [e91]
      omega

end Cert.KernelIdeal.KValue

end
-- ==== Proof.KernelRun.lean ====
/-
  The idealized kernel program's run, read: its result is `G` of its arguments.

  The matrices the region finds are the arguments with their unit axis dropped (`W` converted in format, which
  changes nothing on the extended reals; the bias a row; the scoring column laid out as a row), so the output matrix
  `Garr` is `G` with the unit axis dropped; the last host operation puts the axis back.
-/
import proofs.«177756_j18872086298924_2_alg».proof.Proof.KernelValue
import Idealize.ShloMosaic.Lib.ValueLayout

set_option maxRecDepth 16384

noncomputable section

namespace Cert.KernelIdeal.KValue

open Cert.KernelIdeal Cert.KernelIdeal.Gen Cert.KernelIdeal.Block Cert.NodeAttn
open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat)

/-! ## Reshapes that drop or add the unit axis, read at an index -/

theorem dropUnit_apply {K : ℕ} (x : (⟨3, ![8192, 1, K]⟩ : Shape).Idx → EReal)
    (h : (⟨3, ![8192, 1, K]⟩ : Shape).ShapeCasts ⟨2, ![8192, K]⟩) (p : Fin 8192) (l : Fin K) :
    shapeCast ⟨2, ![8192, K]⟩ x h (ix2 p l) = x (ix3 p (0 : Fin 1) l) :=
  shapeCast_apply x h _ _ (by
    rw [Shape.rowMajor_val_three, Shape.rowMajor_val_two]
    show (p.val * 1 + 0) * K + l.val = p.val * K + l.val
    rw [Nat.mul_one, Nat.add_zero])

theorem addUnit_apply (x : (⟨2, ![8192, 2048]⟩ : Shape).Idx → EReal)
    (h : (⟨2, ![8192, 2048]⟩ : Shape).ShapeCasts ⟨3, ![8192, 1, 2048]⟩) (p : Fin 8192) (u : Fin 1) (cc : Fin 2048) :
    shapeCast ⟨3, ![8192, 1, 2048]⟩ x h (ix3 p u cc) = x (ix2 p cc) :=
  shapeCast_apply x h _ _ (by
    rw [Shape.rowMajor_val_two, Shape.rowMajor_val_three]
    show p.val * 2048 + cc.val = (p.val * 1 + u.val) * 2048 + cc.val
    have := u.isLt
    omega)

theorem colToRow_apply (x : (⟨2, ![512, 1]⟩ : Shape).Idx → EReal)
    (h : (⟨2, ![512, 1]⟩ : Shape).ShapeCasts ⟨2, ![1, 512]⟩) (o : Fin 512) :
    shapeCast ⟨2, ![1, 512]⟩ x h (ix2 (0 : Fin 1) o) = x (ix2 o (0 : Fin 1)) :=
  shapeCast_apply x h _ _ (by
    rw [Shape.rowMajor_val_two, Shape.rowMajor_val_two]
    show o.val * 1 + 0 = 0 * 512 + o.val
    omega)

/-- `rowOut` of entrywise equal arguments. -/
theorem rowOut_congr {ls ls' : Fin 1024 → EReal} {a a' lm lm' at' at'' : Fin 512 → EReal} {ds ds' : Fin 1024 → EReal}
    {dm dm' : Fin 512 → EReal} {W W' : Fin 512 → Fin 2048 → EReal} {b b' h h' : Fin 512 → EReal}
    (e0 : ∀ l, ls l = ls' l) (e1 : ∀ l, a l = a' l) (e2 : ∀ l, lm l = lm' l) (e3 : ∀ l, at' l = at'' l)
    (e4 : ∀ l, ds l = ds' l) (e5 : ∀ l, dm l = dm' l) (e6 : ∀ o l, W o l = W' o l) (e7 : ∀ o, b o = b' o)
    (e8 : ∀ o, h o = h' o) (c : Fin 2048) :
    rowOut ls a lm at' ds dm W b h c = rowOut ls' a' lm' at'' ds' dm' W' b' h' c := by
  obtain rfl : ls = ls' := funext e0
  obtain rfl : a = a' := funext e1
  obtain rfl : lm = lm' := funext e2
  obtain rfl : at' = at'' := funext e3
  obtain rfl : ds = ds' := funext e4
  obtain rfl : dm = dm' := funext e5
  obtain rfl : W = W' := funext fun o => funext (e6 o)
  obtain rfl : b = b' := funext e7
  obtain rfl : h = h' := funext e8
  rfl

variable (m : (ℓ : Loc nD τ sig) → Buf (Elt Ideal) ℓ) (ρ : Dev nD → PrngReg)

/-! ## The matrices the region finds -/

theorem V_v0_apply (c : Dev nD) (p : Fin 8192) (l : Fin 1024) :
    V m c main_v0 (ix2 p l) = (m ((c : Thread nD τ).loc main_arg0)) (ix3 p (0 : Fin 1) l) := by
  have e : (V m c main_v0 : S8192x1024.Idx → EReal)
      = shapeCast S8192x1024 (m ((c : Thread nD τ).loc main_arg0)) shapeCasts_S8192x1x1024_S8192x1024 := by
    show StableHlo.after hostOps0 (fun b => m (c, b)) (Proc.devRef .tc main_v0) = _
    after_results
    rfl
  rw [e]
  exact dropUnit_apply _ _ p l

theorem V_v1_apply (c : Dev nD) (p : Fin 8192) (l : Fin 512) :
    V m c main_v1 (ix2 p l) = (m ((c : Thread nD τ).loc main_arg1)) (ix3 p (0 : Fin 1) l) := by
  have e : (V m c main_v1 : S8192x512.Idx → EReal)
      = shapeCast S8192x512 (m ((c : Thread nD τ).loc main_arg1)) shapeCasts_S8192x1x512_S8192x512 := by
    show StableHlo.after hostOps0 (fun b => m (c, b)) (Proc.devRef .tc main_v1) = _
    after_results
    rfl
  rw [e]
  exact dropUnit_apply _ _ p l

theorem V_v2_apply (c : Dev nD) (p : Fin 8192) (l : Fin 512) :
    V m c main_v2 (ix2 p l) = (m ((c : Thread nD τ).loc main_arg2)) (ix3 p (0 : Fin 1) l) := by
  have e : (V m c main_v2 : S8192x512.Idx → EReal)
      = shapeCast S8192x512 (m ((c : Thread nD τ).loc main_arg2)) shapeCasts_S8192x1x512_S8192x512 := by
    show StableHlo.after hostOps0 (fun b => m (c, b)) (Proc.devRef .tc main_v2) = _
    after_results
    rfl
  rw [e]
  exact dropUnit_apply _ _ p l

theorem V_v3_apply (c : Dev nD) (p : Fin 8192) (l : Fin 512) :
    V m c main_v3 (ix2 p l) = (m ((c : Thread nD τ).loc main_arg3)) (ix3 p (0 : Fin 1) l) := by
  have e : (V m c main_v3 : S8192x512.Idx → EReal)
      = shapeCast S8192x512 (m ((c : Thread nD τ).loc main_arg3)) shapeCasts_S8192x1x512_S8192x512 := by
    show StableHlo.after hostOps0 (fun b => m (c, b)) (Proc.devRef .tc main_v3) = _
    after_results
    rfl
  rw [e]
  exact dropUnit_apply _ _ p l

theorem V_v4_apply (c : Dev nD) (p : Fin 8192) (l : Fin 1024) :
    V m c main_v4 (ix2 p l) = (m ((c : Thread nD τ).loc main_arg4)) (ix3 p (0 : Fin 1) l) := by
  have e : (V m c main_v4 : S8192x1024.Idx → EReal)
      = shapeCast S8192x1024 (m ((c : Thread nD τ).loc main_arg4)) shapeCasts_S8192x1x1024_S8192x1024 := by
    show StableHlo.after hostOps0 (fun b => m (c, b)) (Proc.devRef .tc main_v4) = _
    after_results
    rfl
  rw [e]
  exact dropUnit_apply _ _ p l

theorem V_v5_apply (c : Dev nD) (p : Fin 8192) (l : Fin 512) :
    V m c main_v5 (ix2 p l) = (m ((c : Thread nD τ).loc main_arg5)) (ix3 p (0 : Fin 1) l) := by
  have e : (V m c main_v5 : S8192x512.Idx → EReal)
      = shapeCast S8192x512 (m ((c : Thread nD τ).loc main_arg5)) shapeCasts_S8192x1x512_S8192x512 := by
    show StableHlo.after hostOps0 (fun b => m (c, b)) (Proc.devRef .tc main_v5) = _
    after_results
    rfl
  rw [e]
  exact dropUnit_apply _ _ p l

/-- The bias as a row. -/
theorem V_v6_apply (c : Dev nD) (o : Fin 512) :
    V m c main_v6 (ix2 (0 : Fin 1) o) = (m ((c : Thread nD τ).loc main_arg7)) (ix1 o) := by
  have e : (V m c main_v6 : S1x512.Idx → EReal) = shapeCast S1x512 (m ((c : Thread nD τ).loc main_arg7)) shapeCasts_S512_S1x512 := by
    show StableHlo.after hostOps0 (fun b => m (c, b)) (Proc.devRef .tc main_v6) = _
    after_results
    rfl
  rw [e]
  exact shapeCast_a_1a_apply _ _ (0 : Fin 1) o

/-- The scoring column as a row. -/
theorem V_v7_apply (c : Dev nD) (o : Fin 512) :
    V m c main_v7 (ix2 (0 : Fin 1) o) = (m ((c : Thread nD τ).loc main_arg8)) (ix2 o (0 : Fin 1)) := by
  have e : (V m c main_v7 : S1x512.Idx → EReal) = shapeCast S1x512 (m ((c : Thread nD τ).loc main_arg8)) shapeCasts_S512x1_S1x512 := by
    show StableHlo.after hostOps0 (fun b => m (c, b)) (Proc.devRef .tc main_v7) = _
    after_results
    rfl
  rw [e]
  exact colToRow_apply _ _ o

/-- The weight matrix converted in format: the same extended reals. -/
theorem V_v8_apply (c : Dev nD) (o : Fin 512) (l : Fin 2048) :
    V m c main_v8 (ix2 o l) = (m ((c : Thread nD τ).loc main_arg6)) (ix2 o l) := by
  have e : (V m c main_v8 : S512x2048.Idx → EReal)
      = truncf (F := Ideal) .bf16 (m ((c : Thread nD τ).loc main_arg6)) bitsLt_bf16_f32 := by
    show StableHlo.after hostOps0 (fun b => m (c, b)) (Proc.devRef .tc main_v8) = _
    after_results
  rw [e]
  rfl

/-- The output matrix is `G` of the arguments with the unit axis dropped. -/
theorem Garr_apply (c : Dev nD) (p : Fin 8192) (cc : Fin 2048) :
    Garr m c (ix2 p cc)
      = G (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (ix3 p (0 : Fin 1) cc) := by
  unfold Garr
  rw [rows2_apply, G_apply]
  exact rowOut_congr (V_v0_apply m c p) (V_v1_apply m c p) (V_v2_apply m c p) (V_v3_apply m c p) (V_v4_apply m c p)
    (V_v5_apply m c p) (V_v8_apply m c) (V_v6_apply m c) (V_v7_apply m c) cc

/-! ## The last host operation, and the run -/

/-- The program's result after the region: the output matrix with the unit axis put back, which is `G`. -/
theorem result_eq (c : Dev nD) :
    Pipeline.afterTail₀ cfgs (dats m) 0 (V0 m) [hostOps1] c main_v10
      = G (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) := by
  unfold Pipeline.afterTail₀
  show StableHlo.after hostOps1 _ (Proc.devRef .tc main_v10) = _
  after_results
  funext i
  obtain ⟨p, u, cc, rfl⟩ : ∃ (p : Fin 8192) (u : Fin 1) (cc : Fin 2048), i = ix3 p u cc := ⟨i 0, i 1, i 2, eq_ix3 i⟩
  obtain rfl : u = 0 := Subsingleton.elim _ _
  have hw : Pipeline.withArrays (cfgs 0).spec c (V0 m c) (fun w => (dats m 0 c).arrAt w (cfgs 0).N) (Proc.devRef .tc main_v9)
      = (dats m 0 c).arrAt 9 cfg0.N := Pipeline.withArrays_arr spec0 launch0.win.arr_inj c _ _ 9
  show shapeCast S8192x1x2048 (Pipeline.withArrays (cfgs 0).spec c (V0 m c) (fun w => (dats m 0 c).arrAt w (cfgs 0).N)
      (Proc.devRef .tc main_v9)) shapeCasts_S8192x2048_S8192x1x2048 (ix3 p (0 : Fin 1) cc) = _
  rw [hw, final9]
  exact (addUnit_apply (Garr m c) _ p (0 : Fin 1) cc).trans (Garr_apply m c p cc)

/-- Every weakly fair execution of the idealized kernel program terminates with its result at `G` of the arguments
    and the arguments unchanged. -/
theorem run : θ_run defs (onTc (τ := τ) (main (F := Ideal))) ⟨m, fun _ => 0, ρ⟩ (fun r => ∀ c : Dev nD,
      r.2.mem ((c.tc : Thread nD τ).loc main_v10) = G (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      ((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.KValue

end
-- ==== Proof.LibLastAxisMax.lean ====
/-
  The host's one-operand reduce with a maximum body over the LAST axis, read at an index given by coordinates, over
  arbitrary extents and at the ideal values:
  • of an `[a, b, n]` array at `(p, q)`, and
  • of an `[a, n]` matrix at `p`:
  the fold of `max` along that axis from the initial value. (The middle-axis form is in LibColumnReads; the kernel-side
  row maximum in LibRowReads.)
-/
import Idealize.ShloMosaic.Lib.ValueIdx
import Idealize.ShloMosaic.PureOps.Ideal.Laws

namespace Cert.LibLastAxisMax

open Idealize.ShloMosaic Idealize.ShloMosaic.ValueIdx

/-- Position `(p, q)` of an `[a, b, n]` array with last coordinate `k` put back is `(p, q, k)`. -/
theorem lift_last3 {a b n : ℕ} (h : (⟨3, ![a, b, n]⟩ : Shape).Reduces [2] (⟨2, ![a, b]⟩ : Shape)) (p : Fin a) (q : Fin b)
    (k : Fin n) : h.lift (ix2 p q) k = ix3 p q k := by
  funext c; apply Fin.ext
  fin_cases c <;> rfl

/-- Row `p` of an `[a, n]` matrix with column `k` put back is `(p, k)`. -/
theorem lift_last2 {a n : ℕ} (h : (⟨2, ![a, n]⟩ : Shape).Reduces [1] (⟨1, ![a]⟩ : Shape)) (p : Fin a) (k : Fin n) :
    h.lift (ix1 p) k = ix2 p k := by
  funext c; apply Fin.ext
  fin_cases c <;> rfl

/-- The host's reduce with a maximum body over the last axis of an `[a, b, n]` array, at `(p, q)`, is the fold of
    `max` over that axis from the initial value. -/
theorem hostLastMax3_apply {φ : FTy} {a b n : ℕ} {u : Shape} (x : FVec Ideal ⟨3, ![a, b, n]⟩ φ) (init : FVec Ideal u φ)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p q k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last3 h p q k))

/-- The host's reduce with a maximum body over the last axis of an `[a, n]` matrix, at `p`, is the fold of `max`
    along row `p` from the initial value. -/
theorem hostLastMax2_apply {φ : FTy} {a n : ℕ} {u : Shape} (x : FVec Ideal ⟨2, ![a, n]⟩ φ) (init : FVec Ideal u φ)
    (h' : (⟨2, ![a, n]⟩ : Shape).ReducesTo [1] (⟨1, ![a]⟩ : Shape))
    (h : (⟨2, ![a, n]⟩ : Shape).Reduces [1] (⟨1, ![a]⟩ : Shape)) (hu : 0 < u.numel) (p : Fin a) :
    Host.reduce (FloatOps.maximumf (F := Ideal) (φ := φ)) x init h' hu (ix1 p)
      = (Finset.univ : Finset (Fin n)).fold max (init (Shape.Idx.first hu)) (fun k => x (ix2 p k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last2 h p k))

end Cert.LibLastAxisMax
-- ==== Proof.RefValue.lean ====
/-
  The reference program's result, read at an index, is the row form `refRowOut` of the padded features; with a real
  scoring vector it is therefore the array function `G`.

  Stage by stage: a feature array padded along its last axis reads the feature or zero; the six padded arrays stacked
  along axis 1 give, at `(p, k, l)`, node type `k`'s padded row; the two contractions are sums over `Fin 2048` and
  `Fin 512`; the reshape `[8192, 6, 1] → [8192, 1, 6]` only renames the position of the node axis; the maximum over the
  six scores is a fold from `-∞`; the softmax divides each exponential by their sum from zero; the last contraction sums
  over the six node types.
-/
import proofs.«177756_j18872086298924_2_alg».proof.Proof.Gen.ReferenceIdeal.Read
import proofs.«177756_j18872086298924_2_alg».proof.Proof.ArraySpec
import proofs.«177756_j18872086298924_2_alg».proof.Proof.LibLastAxisMax
import Idealize.ShloMosaic.Lib.KernelVsHost

set_option maxRecDepth 8192

open scoped BigOperators

noncomputable section

namespace Cert.ReferenceIdeal.RefValue

open Cert.ReferenceIdeal Cert.ReferenceIdeal.Gen Cert.ReferenceIdeal.Read Idealize.ShloMosaic Idealize.ShloMosaic.ValueIdx
open Cert.NodeAttn

/-! ## Padding along the last axis -/

/-- A `[8192, 1, K]` array padded at the high end of its last axis to width 2048 reads, at `(p, 0, l)`, the array
    where `l < K` and the padding value elsewhere. -/
theorem padLast_apply {K hi : ℕ} (x : (⟨3, ![8192, 1, K]⟩ : Shape).Idx → EReal) {u : Shape} (v : u.Idx → EReal)
    (h : Shape.Pads (s := ⟨3, ![8192, 1, K]⟩) ![0, 0, 0] ![0, 0, hi] ![0, 0, 0] ⟨3, ![8192, 1, 2048]⟩) (hu : 0 < u.numel)
    (hv : v (Shape.Idx.first hu) = 0) (p : Fin 8192) (l : Fin 2048) :
    pad ⟨3, ![8192, 1, 2048]⟩ ![0, 0, 0] ![0, 0, hi] ![0, 0, 0] x v h hu (ix3 p (0 : Fin 1) l)
      = padRow (fun l' : Fin K => x (ix3 p (0 : Fin 1) l')) l := by
  by_cases hl : l.val < K
  · rw [padRow_of_lt _ _ hl]
    refine pad_apply_of_inside _ _ _ x v h hu _ (ix3 p (0 : Fin 1) ⟨l.val, hl⟩) fun a => ?_
    match a with
    | ⟨0, _⟩ => show p.val = 0 + p.val * (0 + 1); omega
    | ⟨1, _⟩ => show (0 : ℕ) = 0 + 0 * (0 + 1); rfl
    | ⟨2, _⟩ => show l.val = 0 + l.val * (0 + 1); omega
  · rw [padRow_of_not_lt _ _ hl, pad_apply_of_not_inside _ _ _ x v h hu _ (⟨2, by decide⟩ : Fin 3) ?_, hv]
    show ¬(0 ≤ l.val ∧ (l.val - 0) % (0 + 1) = 0 ∧ (l.val - 0) / (0 + 1) < K)
    intro hc
    exact hl (by have := hc.2.2; simpa using this)

/-- The padding value the reference converts from the integer zero is zero. -/
theorem padValue_zero (hu : 0 < S_.numel) :
    (sitofp .f32 (constantI S_ 32 0#32) : FVec Ideal S_ .f32) (Shape.Idx.first hu) = 0 :=
  sitofp_zero

variable (x0 : FVec Ideal S8192x1x1024 .f32) (x1 x2 x3 : FVec Ideal S8192x1x512 .f32) (x4 : FVec Ideal S8192x1x1024 .f32)
  (x5 : FVec Ideal S8192x1x512 .f32) (x6 : FVec Ideal S512x2048 .f32) (x7 : FVec Ideal S512 .f32) (x8 : FVec Ideal S512x1 .f32)

/-- The padded rows of batch row `p`. -/
def rowsOf (p : Fin 8192) : Fin 6 → Fin 2048 → EReal :=
  padRows (fun l => x0 (ix3 p (0 : Fin 1) l)) (fun l => x1 (ix3 p (0 : Fin 1) l)) (fun l => x2 (ix3 p (0 : Fin 1) l))
    (fun l => x3 (ix3 p (0 : Fin 1) l)) (fun l => x4 (ix3 p (0 : Fin 1) l)) (fun l => x5 (ix3 p (0 : Fin 1) l))

theorem v0_apply (p : Fin 8192) (l : Fin 2048) :
    val_main_v0 (F := Ideal) x0 (ix3 p (0 : Fin 1) l) = padRow (fun l' => x0 (ix3 p (0 : Fin 1) l')) l :=
  padLast_apply x0 _ _ _ (padValue_zero _) p l
theorem v1_apply (p : Fin 8192) (l : Fin 2048) :
    val_main_v1 (F := Ideal) x1 (ix3 p (0 : Fin 1) l) = padRow (fun l' => x1 (ix3 p (0 : Fin 1) l')) l :=
  padLast_apply x1 _ _ _ (padValue_zero _) p l
theorem v2_apply (p : Fin 8192) (l : Fin 2048) :
    val_main_v2 (F := Ideal) x2 (ix3 p (0 : Fin 1) l) = padRow (fun l' => x2 (ix3 p (0 : Fin 1) l')) l :=
  padLast_apply x2 _ _ _ (padValue_zero _) p l
theorem v3_apply (p : Fin 8192) (l : Fin 2048) :
    val_main_v3 (F := Ideal) x3 (ix3 p (0 : Fin 1) l) = padRow (fun l' => x3 (ix3 p (0 : Fin 1) l')) l :=
  padLast_apply x3 _ _ _ (padValue_zero _) p l
theorem v4_apply (p : Fin 8192) (l : Fin 2048) :
    val_main_v4 (F := Ideal) x4 (ix3 p (0 : Fin 1) l) = padRow (fun l' => x4 (ix3 p (0 : Fin 1) l')) l :=
  padLast_apply x4 _ _ _ (padValue_zero _) p l
theorem v5_apply (p : Fin 8192) (l : Fin 2048) :
    val_main_v5 (F := Ideal) x5 (ix3 p (0 : Fin 1) l) = padRow (fun l' => x5 (ix3 p (0 : Fin 1) l')) l :=
  padLast_apply x5 _ _ _ (padValue_zero _) p l

/-! ## The six padded arrays stacked along axis 1 -/

/-- The stack at `(p, k, l)` is piece `k` at `(p, 0, l)`. -/
theorem stack6_apply (u0 u1 u2 u3 u4 u5 : S8192x1x2048.Idx → EReal)
    (h : Shape.Concatenates (([⟨S8192x1x2048, u0⟩, ⟨S8192x1x2048, u1⟩, ⟨S8192x1x2048, u2⟩, ⟨S8192x1x2048, u3⟩,
      ⟨S8192x1x2048, u4⟩, ⟨S8192x1x2048, u5⟩] : List ((s : Shape) × (s.Idx → EReal))).map (·.1)) S8192x6x2048 1)
    (p : Fin 8192) (k : Fin 6) (l : Fin 2048) :
    concatenate S8192x6x2048 1 [⟨S8192x1x2048, u0⟩, ⟨S8192x1x2048, u1⟩, ⟨S8192x1x2048, u2⟩, ⟨S8192x1x2048, u3⟩,
      ⟨S8192x1x2048, u4⟩, ⟨S8192x1x2048, u5⟩] h (ix3 p k l)
      = (![u0, u1, u2, u3, u4, u5] : Fin 6 → S8192x1x2048.Idx → EReal) k (ix3 p (0 : Fin 1) l) := by
  have hi : ∀ b : Fin S8192x1x2048.rank, b.cast (rfl : S8192x1x2048.rank = S8192x6x2048.rank) ≠ (1 : Fin 3) →
      (ix3 p (0 : Fin 1) l b).val = (ix3 p k l (b.cast (rfl : S8192x1x2048.rank = S8192x6x2048.rank))).val := by
    intro b hb
    match b with
    | ⟨0, _⟩ => rfl
    | ⟨1, _⟩ => exact absurd rfl hb
    | ⟨2, _⟩ => rfl
  fin_cases k
  · exact concatenate_apply_piece 1 _ h _ 0 (by show (0 : ℕ) < 6; omega) _ _ rfl rfl 0 rfl (ix3 p (0 : Fin 1) l) hi rfl
  · exact concatenate_apply_piece 1 _ h _ 1 (by show (1 : ℕ) < 6; omega) _ _ rfl rfl 1 rfl (ix3 p (0 : Fin 1) l) hi rfl
  · exact concatenate_apply_piece 1 _ h _ 2 (by show (2 : ℕ) < 6; omega) _ _ rfl rfl 2 rfl (ix3 p (0 : Fin 1) l) hi rfl
  · exact concatenate_apply_piece 1 _ h _ 3 (by show (3 : ℕ) < 6; omega) _ _ rfl rfl 3 rfl (ix3 p (0 : Fin 1) l) hi rfl
  · exact concatenate_apply_piece 1 _ h _ 4 (by show (4 : ℕ) < 6; omega) _ _ rfl rfl 4 rfl (ix3 p (0 : Fin 1) l) hi rfl
  · exact concatenate_apply_piece 1 _ h _ 5 (by show (5 : ℕ) < 6; omega) _ _ rfl rfl 5 rfl (ix3 p (0 : Fin 1) l) hi rfl

theorem v6_apply (p : Fin 8192) (k : Fin 6) (l : Fin 2048) :
    val_main_v6 (F := Ideal) x0 x1 x2 x3 x4 x5 (ix3 p k l) = rowsOf x0 x1 x2 x3 x4 x5 p k l := by
  unfold val_main_v6
  rw [stack6_apply]
  fin_cases k
  · exact v0_apply x0 p l
  · exact v1_apply x1 p l
  · exact v2_apply x2 p l
  · exact v3_apply x3 p l
  · exact v4_apply x4 p l
  · exact v5_apply x5 p l

/-! ## The two contractions, the bias and the activation -/

theorem lidx7 (p : Fin 8192) (k : Fin 6) (o : Fin 512) (l : Fin 2048) : lidx_main_v7 (ix3 p k o) l = ix3 p k l :=
  funext fun a => by match a with | ⟨0, _⟩ => rfl | ⟨1, _⟩ => rfl | ⟨2, _⟩ => rfl
theorem ridx7 (p : Fin 8192) (k : Fin 6) (o : Fin 512) (l : Fin 2048) : ridx_main_v7 (ix3 p k o) l = ix2 o l :=
  funext fun a => by match a with | ⟨0, _⟩ => rfl | ⟨1, _⟩ => rfl

theorem v7_apply (p : Fin 8192) (k : Fin 6) (o : Fin 512) :
    val_main_v7 (F := Ideal) x0 x1 x2 x3 x4 x5 x6 (ix3 p k o) = ∑ l : Fin 2048, rowsOf x0 x1 x2 x3 x4 x5 p k l * x6 (ix2 o l) := by
  rw [val_main_v7_apply]
  refine Finset.sum_congr rfl fun l _ => ?_
  rw [lidx7, ridx7, v6_apply]

theorem v9_apply (p : Fin 8192) (k : Fin 6) (o : Fin 512) : val_main_v9 (F := Ideal) x7 (ix3 p k o) = x7 (ix1 o) := by
  rw [val_main_v9_apply, val_main_v8_apply]
  exact congrArg x7 (funext fun a => by match a with | ⟨0, _⟩ => rfl)

theorem v11_apply (p : Fin 8192) (k : Fin 6) (o : Fin 512) :
    val_main_v11 (F := Ideal) x0 x1 x2 x3 x4 x5 x6 x7 (ix3 p k o)
      = Ideal.tanh ((∑ l : Fin 2048, rowsOf x0 x1 x2 x3 x4 x5 p k l * x6 (ix2 o l)) + x7 (ix1 o)) := by
  rw [val_main_v11_apply, val_main_v10_apply, v7_apply, v9_apply]
  rfl

theorem lidx12 (p : Fin 8192) (k : Fin 6) (o : Fin 512) : lidx_main_v12 (ix3 p k (0 : Fin 1)) o = ix3 p k o :=
  funext fun a => by match a with | ⟨0, _⟩ => rfl | ⟨1, _⟩ => rfl | ⟨2, _⟩ => rfl
theorem ridx12 (p : Fin 8192) (k : Fin 6) (o : Fin 512) : ridx_main_v12 (ix3 p k (0 : Fin 1)) o = ix2 o (0 : Fin 1) :=
  funext fun a => by match a with | ⟨0, _⟩ => rfl | ⟨1, _⟩ => rfl

/-- The score of node type `k` in batch row `p`. -/
def scoreOf (p : Fin 8192) (k : Fin 6) : EReal :=
  refScore (rowsOf x0 x1 x2 x3 x4 x5 p k) (fun o l => x6 (ix2 o l)) (fun o => x7 (ix1 o)) (fun o => x8 (ix2 o (0 : Fin 1)))

theorem v12_apply (p : Fin 8192) (k : Fin 6) :
    val_main_v12 (F := Ideal) x0 x1 x2 x3 x4 x5 x6 x7 x8 (ix3 p k (0 : Fin 1)) = scoreOf x0 x1 x2 x3 x4 x5 x6 x7 x8 p k := by
  rw [val_main_v12_apply]
  unfold scoreOf refScore
  refine Finset.sum_congr rfl fun o _ => ?_
  rw [lidx12, ridx12, v11_apply]

/-! ## The node axis moved last, and the softmax over it -/

theorem idx13 (p : Fin 8192) (k : Fin 6) : idx_main_v13 (ix3 p (0 : Fin 1) k) = ix3 p k (0 : Fin 1) :=
  funext fun a => Fin.ext (by
    have hp := p.isLt; have hk := k.isLt
    match a with
    | ⟨0, _⟩ => show ((p.val * 1 + 0) * 6 + k.val) / 6 = p.val; omega
    | ⟨1, _⟩ => show ((p.val * 1 + 0) * 6 + k.val) / 1 % 6 = k.val; omega
    | ⟨2, _⟩ => rfl)

theorem v13_apply (p : Fin 8192) (k : Fin 6) :
    val_main_v13 (F := Ideal) x0 x1 x2 x3 x4 x5 x6 x7 x8 (ix3 p (0 : Fin 1) k) = scoreOf x0 x1 x2 x3 x4 x5 x6 x7 x8 p k := by
  rw [val_main_v13_apply, idx13, v12_apply]

theorem negInf : Ideal.ofBits .f32 0xFF800000#32 = (⊥ : EReal) := by
  simp [Ideal.ofBits, Ideal.ieee]

theorem v14_apply (p : Fin 8192) :
    val_main_v14 (F := Ideal) x0 x1 x2 x3 x4 x5 x6 x7 x8 (ix2 p (0 : Fin 1))
      = (Finset.univ : Finset (Fin 6)).fold max ⊥ (scoreOf x0 x1 x2 x3 x4 x5 x6 x7 x8 p) := by
  unfold val_main_v14
  rw [Cert.LibLastAxisMax.hostLastMax3_apply _ _ _ (by decide) _ p (0 : Fin 1)]
  have e0 : val_main_cst (F := Ideal) (Shape.Idx.first h_S_) = (⊥ : EReal) := negInf
  rw [e0]
  exact congrArg (fun f => Finset.fold max (⊥ : EReal) f (Finset.univ : Finset (Fin 6)))
    (funext fun k => v13_apply x0 x1 x2 x3 x4 x5 x6 x7 x8 p k)

theorem v16_apply (p : Fin 8192) :
    val_main_v16 (F := Ideal) x0 x1 x2 x3 x4 x5 x6 x7 x8 (ix2 p (0 : Fin 1)) = mFold (scoreOf x0 x1 x2 x3 x4 x5 x6 x7 x8 p) := by
  rw [val_main_v16_apply, val_main_v15_apply, v14_apply]
  have e0 : val_main_cst_5 (F := Ideal) (idx_main_v15 (ix2 p (0 : Fin 1))) = (⊥ : EReal) := negInf
  rw [e0]
  rfl

theorem idx18 (p : Fin 8192) (k : Fin 6) : idx_main_v17 (idx_main_v18 (ix3 p (0 : Fin 1) k)) = ix2 p (0 : Fin 1) :=
  funext fun a => by match a with | ⟨0, _⟩ => rfl | ⟨1, _⟩ => rfl

theorem v20_apply (p : Fin 8192) (k : Fin 6) :
    val_main_v20 (F := Ideal) x0 x1 x2 x3 x4 x5 x6 x7 x8 (ix3 p (0 : Fin 1) k)
      = Ideal.exp (scoreOf x0 x1 x2 x3 x4 x5 x6 x7 x8 p k - mFold (scoreOf x0 x1 x2 x3 x4 x5 x6 x7 x8 p)) := by
  rw [val_main_v20_apply, val_main_v19_apply, val_main_v18_apply, val_main_v17_apply, idx18, v16_apply, v13_apply]
  rfl

theorem idx21 (p : Fin 8192) (k : Fin 6) : idx_main_v21 (ix2 p (0 : Fin 1)) k = ix3 p (0 : Fin 1) k :=
  funext fun a => by match a with | ⟨0, _⟩ => rfl | ⟨1, _⟩ => rfl | ⟨2, _⟩ => rfl

theorem v21_apply (p : Fin 8192) :
    val_main_v21 (F := Ideal) x0 x1 x2 x3 x4 x5 x6 x7 x8 (ix2 p (0 : Fin 1))
      = 0 + ∑ j : Fin 6, Ideal.exp (scoreOf x0 x1 x2 x3 x4 x5 x6 x7 x8 p j - mFold (scoreOf x0 x1 x2 x3 x4 x5 x6 x7 x8 p)) := by
  rw [val_main_v21_apply]
  have e0 : val_main_cst_6 (F := Ideal) (Shape.Idx.first h_S_) = (0 : EReal) := Ideal.ofBits_zero_f32
  rw [e0]
  refine congrArg (0 + ·) (Finset.sum_congr rfl fun j _ => ?_)
  rw [idx21, v20_apply]

theorem idx23 (p : Fin 8192) (k : Fin 6) : idx_main_v22 (idx_main_v23 (ix3 p (0 : Fin 1) k)) = ix2 p (0 : Fin 1) :=
  funext fun a => by match a with | ⟨0, _⟩ => rfl | ⟨1, _⟩ => rfl

theorem v24_apply (p : Fin 8192) (k : Fin 6) :
    val_main_v24 (F := Ideal) x0 x1 x2 x3 x4 x5 x6 x7 x8 (ix3 p (0 : Fin 1) k) = wFold (scoreOf x0 x1 x2 x3 x4 x5 x6 x7 x8 p) k := by
  rw [val_main_v24_apply, val_main_v23_apply, val_main_v22_apply, idx23, v21_apply, v20_apply]
  rfl

/-! ## The weighted sum of the six padded rows -/

theorem lidx25 (p : Fin 8192) (c : Fin 2048) (k : Fin 6) : lidx_main_v25 (ix3 p (0 : Fin 1) c) k = ix3 p (0 : Fin 1) k :=
  funext fun a => by match a with | ⟨0, _⟩ => rfl | ⟨1, _⟩ => rfl | ⟨2, _⟩ => rfl
theorem ridx25 (p : Fin 8192) (c : Fin 2048) (k : Fin 6) : ridx_main_v25 (ix3 p (0 : Fin 1) c) k = ix3 p k c :=
  funext fun a => by match a with | ⟨0, _⟩ => rfl | ⟨1, _⟩ => rfl | ⟨2, _⟩ => rfl

theorem v25_apply (p : Fin 8192) (c : Fin 2048) :
    val_main_v25 (F := Ideal) x0 x1 x2 x3 x4 x5 x6 x7 x8 (ix3 p (0 : Fin 1) c)
      = refRowOut (rowsOf x0 x1 x2 x3 x4 x5 p) (fun o l => x6 (ix2 o l)) (fun o => x7 (ix1 o)) (fun o => x8 (ix2 o (0 : Fin 1))) c := by
  rw [val_main_v25_apply]
  unfold refRowOut
  refine Finset.sum_congr rfl fun k _ => ?_
  rw [lidx25, ridx25, v24_apply, v6_apply]
  rfl

/-- With a real scoring vector, the reference's result is `G` of the arguments. -/
theorem result_eq_G (hh : ∀ o : Fin 512, IsReal (x8 (ix2 o (0 : Fin 1)))) :
    val_main_v25 (F := Ideal) x0 x1 x2 x3 x4 x5 x6 x7 x8 = G x0 x1 x2 x3 x4 x5 x6 x7 x8 := by
  funext i
  obtain ⟨p, u, c, rfl⟩ : ∃ (p : Fin 8192) (u : Fin 1) (c : Fin 2048), i = ix3 p u c := ⟨i 0, i 1, i 2, eq_ix3 i⟩
  obtain rfl : u = 0 := Subsingleton.elim _ _
  rw [v25_apply, G_apply]
  exact refRowOut_eq _ _ _ _ _ _ _ _ _ hh c

end Cert.ReferenceIdeal.RefValue

end
-- ==== Proof.Finite.lean ====
/-
  From the precondition "every float input is finite" to what the proof uses of it: every entry of the scoring
  vector `h_n` is a real number. The precondition is a conjunction of nine `all (|x| < +∞)`; its last conjunct is
  `h_n`'s, and an extended real whose absolute value is below `+∞` is a real.
-/
import proofs.«177756_j18872086298924_2_alg».proof.Pre_finite_inputs
import proofs.«177756_j18872086298924_2_alg».proof.Proof.Gen.Pre_finite_inputs
import proofs.«177756_j18872086298924_2_alg».proof.Proof.SoftmaxLaw
import Idealize.ShloMosaic.Lib.ReduceAll
import Idealize.ShloMosaic.Lib.Affine
import Idealize.ShloMosaic.Lib.ValueIdx
import Idealize.ShloMosaic.PureOps.Ideal.Laws

set_option maxRecDepth 8192

noncomputable section

namespace Cert.Pre_finite_inputs.Finite

open Cert.Pre_finite_inputs Cert.Pre_finite_inputs.Gen Idealize.ShloMosaic Idealize.ShloMosaic.ValueIdx
open Cert.NodeAttn

instance : Subsingleton S_.Idx := ⟨fun a b => funext fun d => d.elim0⟩

/-- An extended real whose absolute value compares below `+∞` is a real. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  have hlt : max x (-x) < ⊤ := by
    by_contra hn
    simp [hn] at h'
  induction x using EReal.rec with
  | bot => simp at hlt
  | top => simp at hlt
  | coe r => exact ⟨r, rfl⟩

/-- Under the precondition every entry of the scoring vector is a real. -/
theorem h_real (a0 : FVec Ideal S8192x1x1024 .f32) (a1 a2 a3 : FVec Ideal S8192x1x512 .f32) (a4 : FVec Ideal S8192x1x1024 .f32)
    (a5 : FVec Ideal S8192x1x512 .f32) (a6 : FVec Ideal S512x2048 .f32) (a7 : FVec Ideal S512 .f32) (a8 : FVec Ideal S512x1 .f32)
    (h : fn (F := Ideal) a0 a1 a2 a3 a4 a5 a6 a7 a8 = fun _ => 1#1) (o : Fin 512) :
    IsReal (a8 (ix2 o (0 : Fin 1))) := by
  have h0 := congrFun h ix0
  dsimp only [fn, fn_part1, fn_part2] at h0
  have h1 := (IntOp.andi_eq_one.mp h0).2
  have h2 := Host.reduce_andi_all _ _ _ _ _ h1 (ix2 o (0 : Fin 1))
  exact isReal_of_abs_lt_inf _ h2

end Cert.Pre_finite_inputs.Finite

end
-- ==== Proof.lean ====
/-
  The certificate of a six-way node attention: a Pallas kernel over blocks of 512 batch rows against its jnp reference.

  For each batch row, six node types (features of width 1024 or 512) are scored by
  `∑ o, tanh (x · W[o, :d] + b o) · h o`; the scores go through a softmax; the result row is the weighted sum of the
  six feature rows, each padded with zeros to width 2048. The kernel contracts the unpadded features with the leading
  columns of `W`, takes the softmax as exponentials times the reciprocal of their sum, and writes the three column
  ranges of the result apart; the reference pads first, contracts over all 2048 columns, divides by the sum, and
  contracts once more over the six types. On the extended reals the two agree when the scoring vector `h` is real
  (so that the scores, hence the sum of exponentials, are real): a zero factor annihilates its term, and division by
  a nonzero real is multiplication by its reciprocal.

  * the three frames: the kernel programs' are the generated frame runs; the reference's is its generated run;
  * `preserves`: the ideal pass rewrote nothing;
  * `algebraic`: both programs end at `G` of the arguments (Proof/KernelRun.lean, Proof/RefValue.lean), the
    reference's under the precondition's finiteness of `h` (Proof/Finite.lean).
-/
import proofs.«177756_j18872086298924_2_alg».proof.Defs
import proofs.«177756_j18872086298924_2_alg».proof.Proof.Gen.Kernel
import proofs.«177756_j18872086298924_2_alg».proof.Proof.Gen.Kernel.Skeleton
import proofs.«177756_j18872086298924_2_alg».proof.Proof.Gen.Kernel.Launch
import proofs.«177756_j18872086298924_2_alg».proof.Proof.Gen.Kernel.Points
import proofs.«177756_j18872086298924_2_alg».proof.Proof.Gen.Kernel.Frame
import proofs.«177756_j18872086298924_2_alg».proof.Proof.Gen.KernelIdeal
import proofs.«177756_j18872086298924_2_alg».proof.Proof.Gen.KernelIdeal.Skeleton
import proofs.«177756_j18872086298924_2_alg».proof.Proof.Gen.KernelIdeal.Launch
import proofs.«177756_j18872086298924_2_alg».proof.Proof.Gen.KernelIdeal.Points
import proofs.«177756_j18872086298924_2_alg».proof.Proof.Gen.KernelIdeal.Frame
import proofs.«177756_j18872086298924_2_alg».proof.Proof.Gen.ReferenceIdeal
import proofs.«177756_j18872086298924_2_alg».proof.Proof.Gen.Pre_finite_inputs
import proofs.«177756_j18872086298924_2_alg».proof.Proof.Gen.ReferenceIdeal.Run
import proofs.«177756_j18872086298924_2_alg».proof.Proof.Gen.ReferenceIdeal.Read
import proofs.«177756_j18872086298924_2_alg».proof.Proof.KernelRun
import proofs.«177756_j18872086298924_2_alg».proof.Proof.RefValue
import proofs.«177756_j18872086298924_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at `G` of the (agreeing) arguments. -/
theorem algebraic : Cert.algebraic_KernelIdeal_ReferenceIdeal := by
  intro m ρ m' ρ' hpre hagree
  refine ⟨fun c => Cert.NodeAttn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v25_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact Cert.ReferenceIdeal.RefValue.result_eq_G _ _ _ _ _ _ _ _ _
    (fun o => Cert.Pre_finite_inputs.Finite.h_real _ _ _ _ _ _ _ _ _ (hpre c) o)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
